-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S2x4096 : Shape := ⟨2, ![2, 4096]⟩
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2x4096 : S_.BroadcastsInDim S2x4096 (![] : Fin 0 → Fin S2x4096.rank)
  reducesTo_S2x4096_S_d0_1 : S2x4096.ReducesTo [0, 1] S_

variable [Facts]

def fn {F : FTy → Type} [FloatOps F] (main_arg0 : IVec S2x4096 32) (main_arg1 : FVec F S8192x1024 .f32) : IVec S_ 1 :=
  let main_v0 : FVec F S8192x1024 .f32 := Host.absf main_arg1
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 32 := constantI S_ 32 0#32
  let main_v4 : IVec S2x4096 32 := broadcastInDim S2x4096 ![] bcast_S_S2x4096 main_c_0
  let main_v5 : IVec S2x4096 1 := cmpi .sge main_arg0 main_v4
  let main_c_1 : IVec S_ 32 := constantI S_ 32 8191#32
  let main_v6 : IVec S2x4096 32 := broadcastInDim S2x4096 ![] bcast_S_S2x4096 main_c_1
  let main_v7 : IVec S2x4096 1 := cmpi .sle main_arg0 main_v6
  let main_v8 : IVec S2x4096 1 := andi main_v5 main_v7
  let main_c_2 : IVec S_ 1 := constantI S_ 1 1#1
  let main_v9 : IVec S_ 1 := (fun x v => Host.reduce IntOp.andi x v reducesTo_S2x4096_S_d0_1 h_S_) main_v8 main_c_2
  let main_v10 : IVec S_ 1 := andi main_v3 main_v9
  main_v10
-- ==== Kernel.lean ====
abbrev S2x4096 : Shape := ⟨2, ![2, 4096]⟩
abbrev S8192x1024 : Shape := ⟨2, ![8192, 1024]⟩
abbrev S4096x1024 : Shape := ⟨2, ![4096, 1024]⟩
abbrev S32x1024 : Shape := ⟨2, ![32, 1024]⟩
abbrev S_ : Shape := ⟨0, ![]⟩
abbrev S1x4096x1024 : Shape := ⟨3, ![1, 4096, 1024]⟩

abbrev nBuf : Table → Nat
  | .hbm => 4
  | .local .scVector .vmem => 3
  | _ => 0

abbrev bufTy : (tb : Table) → Fin (nBuf tb) → BufTy
  | .hbm, ⟨0, _⟩ => ⟨S2x4096, .i32⟩
  | .hbm, ⟨1, _⟩ => ⟨S8192x1024, .f32⟩
  | .hbm, ⟨2, _⟩ => ⟨S4096x1024, .f32⟩
  | .hbm, ⟨3, _⟩ => ⟨S1x4096x1024, .f32⟩
  | .local .scVector .vmem, ⟨0, _⟩ => ⟨S32x1024, .f32⟩
  | .local .scVector .vmem, ⟨1, _⟩ => ⟨S32x1024, .f32⟩
  | .local .scVector .vmem, ⟨2, _⟩ => ⟨S32x1024, .f32⟩
  | _, _ => ⟨S2x4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi v2 c0_i32
  let c0_i32_0 : BitVec 32 := 0#32
  ![v3.toNat, 0]
def k0_off2 (i : grid0.Coords) (c0_i32_9 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v15 : BitVec 32 := Scalar.addi v2 c0_i32_9
  let c0_i32_10 : BitVec 32 := 0#32
  ![v15.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S4096x1024_S1x4096x1024_1_2 : S4096x1024.BroadcastsInDim S1x4096x1024 (![1, 2] : Fin 2 → Fin S1x4096x1024.rank)
  hcc0_scratch3 : 0 + S_.numel ≤ 6
  hcc0_scratch4 : 1 + S_.numel ≤ 6
  hcc0_scratch5 : 2 + S_.numel ≤ 6
  hcc0_scratch6 : 3 + S_.numel ≤ 6
  hcc0_scratch7 : 4 + S_.numel ≤ 6
  hcc0_scratch8 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (32 * r.val))) a + S32x1024.size a ≤ S8192x1024.size a
  k0_off2_inb : ∀ i : grid0.Coords, ∀ (r : Fin 4), ∀ a, (k0_off2 i (BitVec.ofNat 32 (32 * r.val))) a + S32x1024.size a ≤ S4096x1024.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8

class Facts : Prop extends Facts₀ where

variable [Facts]
-- ==== ReferenceIdeal.lean ====
abbrev S2x4096 : Shape := ⟨2, ![2, 4096]⟩
abbrev S8192x1024 : Shape := ⟨2, ![8192, 1024]⟩
abbrev S4096 : Shape := ⟨1, ![4096]⟩
abbrev S1x4096 : Shape := ⟨2, ![1, 4096]⟩
abbrev S_ : Shape := ⟨0, ![]⟩
abbrev S1x4096x1 : Shape := ⟨3, ![1, 4096, 1]⟩
abbrev S1 : Shape := ⟨1, ![1]⟩
abbrev S1x1x1 : Shape := ⟨3, ![1, 1, 1]⟩
abbrev S1x4096x1024 : Shape := ⟨3, ![1, 4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x4096, .i32⟩
  | .hbm, ⟨1, _⟩ => ⟨S8192x1024, .f32⟩
  | .hbm, ⟨2, _⟩ => ⟨S4096, .i32⟩
  | .hbm, ⟨3, _⟩ => ⟨S1x4096, .i32⟩
  | .hbm, ⟨4, _⟩ => ⟨S_, .i32⟩
  | .hbm, ⟨5, _⟩ => ⟨S1x4096, .i32⟩
  | .hbm, ⟨6, _⟩ => ⟨S1x4096, .i1⟩
  | .hbm, ⟨7, _⟩ => ⟨S_, .i32⟩
  | .hbm, ⟨8, _⟩ => ⟨S1x4096, .i32⟩
  | .hbm, ⟨9, _⟩ => ⟨S1x4096, .i32⟩
  | .hbm, ⟨10, _⟩ => ⟨S1x4096, .i32⟩
  | .hbm, ⟨11, _⟩ => ⟨S1x4096x1, .i32⟩
  | .hbm, ⟨12, _⟩ => ⟨S1, .i32⟩
  | .hbm, ⟨13, _⟩ => ⟨S_, .i32⟩
  | .hbm, ⟨14, _⟩ => ⟨S1x4096x1, .i32⟩
  | .hbm, ⟨15, _⟩ => ⟨S1x4096x1, .i1⟩
  | .hbm, ⟨16, _⟩ => ⟨S1x1x1, .i32⟩
  | .hbm, ⟨17, _⟩ => ⟨S1x4096x1, .i32⟩
  | .hbm, ⟨18, _⟩ => ⟨S1x4096x1, .i1⟩
  | .hbm, ⟨19, _⟩ => ⟨S1x4096x1, .i1⟩
  | .hbm, ⟨20, _⟩ => ⟨S_, .i1⟩
  | .hbm, ⟨21, _⟩ => ⟨S1x4096, .i1⟩
  | .hbm, ⟨22, _⟩ => ⟨S1x4096x1024, .f32⟩
  | .hbm, ⟨23, _⟩ => ⟨S1x4096x1024, .i1⟩
  | .hbm, ⟨24, _⟩ => ⟨S_, .f32⟩
  | .hbm, ⟨25, _⟩ => ⟨S1x4096x1024, .f32⟩
  | .hbm, ⟨26, _⟩ => ⟨S1x4096x1024, .f32⟩
  | _, _ => ⟨S2x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  bcast_S_S1x4096x1 : S_.BroadcastsInDim S1x4096x1 (![] : Fin 0 → Fin S1x4096x1.rank)
  bcast_S1_S1x1x1_2 : S1.BroadcastsInDim S1x1x1 (![2] : Fin 1 → Fin S1x1x1.rank)
  bcast_S1x1x1_S1x4096x1_0_1_2 : S1x1x1.BroadcastsInDim S1x4096x1 (![0, 1, 2] : Fin 3 → Fin S1x4096x1.rank)
  reducesTo_S1x4096x1_S1x4096_d2 : S1x4096x1.ReducesTo [2] S1x4096
  h_S_ : 0 < S_.numel
  bcast_S1x4096_S1x4096x1024_0_1 : S1x4096.BroadcastsInDim S1x4096x1024 (![0, 1] : Fin 2 → Fin S1x4096x1024.rank)
  bcast_S_S1x4096x1024 : S_.BroadcastsInDim S1x4096x1024 (![] : Fin 0 → Fin S1x4096x1024.rank)
  gather_S8192x1024_S1x4096x1_S1x4096x1024_2_0_n_n_0_2_11024_wf : GatherDims.WF S8192x1024 S1x4096x1 S1x4096x1024 [2] [0] [] [0] [] 2 ![1, 1024]

variable [Facts₀]

def gather_S8192x1024_S1x4096x1_S1x4096x1024_2_0_n_n_0_2_11024 : GatherDims S8192x1024 S1x4096x1 S1x4096x1024 where
  offsetDims := [2]
  collapsedSliceDims := [0]
  operandBatchingDims := []
  startIndicesBatchingDims := []
  startIndexMap := [0]
  indexVectorDim := 2
  sliceSizes := ![1, 1024]
  wf := gather_S8192x1024_S1x4096x1_S1x4096x1024_2_0_n_n_0_2_11024_wf

class Facts : Prop extends Facts₀ where

variable [Facts]
-- ==== Proof.Spec.lean ====
/-
  What both programs compute, as ONE function of the table: the positions are 0, 1, …, 4095, so the looked-up rows are
  the table's first 4096 rows, in order. Entry (r, j) of the row block is entry (r, j) of the table (`rows`), and the
  result carries the same entries under a leading axis of extent one (`result`).
-/
import Idealize.ShloMosaic.Lib.ValueIdx

namespace Cert.Spec

open Idealize.ShloMosaic Idealize.ShloMosaic.ValueIdx

/-- Row `r < 4096` of the row block is row `r` of the table of 8192 rows. -/
def rows {α : Type} (tab : (⟨2, ![8192, 1024]⟩ : Shape).Idx → α) : (⟨2, ![4096, 1024]⟩ : Shape).Idx → α :=
  fun i => tab (ix2 (Fin.castLE (by decide : 4096 ≤ 8192) (i 0)) (i 1))

/-- The result `[1, 4096, 1024]`: entry (0, r, j) is entry (r, j) of the table. -/
def result {α : Type} (tab : (⟨2, ![8192, 1024]⟩ : Shape).Idx → α) : (⟨3, ![1, 4096, 1024]⟩ : Shape).Idx → α :=
  fun i => tab (ix2 (Fin.castLE (by decide : 4096 ≤ 8192) (i 1)) (i 2))

theorem rows_apply {α : Type} (tab : (⟨2, ![8192, 1024]⟩ : Shape).Idx → α) (r : Fin 4096) (j : Fin 1024) :
    rows tab (ix2 r j) = tab (ix2 (Fin.castLE (by decide : 4096 ≤ 8192) r) j) := rfl

theorem result_apply {α : Type} (tab : (⟨2, ![8192, 1024]⟩ : Shape).Idx → α) (z : Fin 1) (r : Fin 4096) (j : Fin 1024) :
    result tab (ix3 z r j) = tab (ix2 (Fin.castLE (by decide : 4096 ≤ 8192) r) j) := rfl

/-- The result is the row block broadcast along a new leading axis: output axes 1 and 2 are the block's axes 0 and 1. -/
theorem broadcast_rows {α : Type} (tab : (⟨2, ![8192, 1024]⟩ : Shape).Idx → α)
    (h : (⟨2, ![4096, 1024]⟩ : Shape).BroadcastsInDim ⟨3, ![1, 4096, 1024]⟩ (![1, 2] : Fin 2 → Fin 3)) :
    broadcastInDim (⟨3, ![1, 4096, 1024]⟩ : Shape) ![1, 2] h (rows tab) = result tab := by
  funext i
  unfold broadcastInDim rows result
  refine congrArg tab ?_
  funext a
  match a with
  | ⟨0, _⟩ => rfl
  | ⟨1, _⟩ => rfl

end Cert.Spec
-- ==== Proof.RefOps.lean ====
/-
  The reference program's @main as one straight line of its 25 host operations — the two of @main itself, then
  the body of the outlined take (with the body of the outlined where substituted at its call) over the buffers
  the call names — and its run: every weakly fair execution terminates with each TensorCore buffer at the fold
  of the operations' results over the launch contents.
-/
import proofs.«217626_g16260746182798_cont_week2b_915_14_alg».proof.ReferenceIdeal
import proofs.«217626_g16260746182798_cont_week2b_915_14_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- @main's operations in order, the calls substituted: the positions (an iota, its broadcast to one row), then
    the take's twenty-three — the sign test and the wrapped position, the where's select between them, the
    position as an index column, the in-range mask (two comparisons, their conjunction, its reduction over the
    unit axis), the gather, the mask and the not-a-number constant broadcast, the final select. -/
abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    TRef.nullary main_call0.c (constantI S_ 32 0#32),
    TRef.unary main_call0.c main_call0.v0 (broadcastInDim S1x4096 ![] bcast_S_S1x4096),
    TRef.binary (.of main_v1) main_call0.v0 main_call0.v1 (cmpi .slt),
    TRef.nullary main_call0.c_0 (constantI S_ 32 8192#32),
    TRef.unary main_call0.c_0 main_call0.v2 (broadcastInDim S1x4096 ![] bcast_S_S1x4096),
    TRef.binary (.of main_v1) main_call0.v2 main_call0.v3 addi,
    TRef.ternary main_call0.v1 main_call0.v3 (.of main_v1) main_call0.call0.v0 select,
    TRef.unary main_call0.call0.v0 main_call0.v5 (broadcastInDim S1x4096x1 ![0, 1] bcast_S1x4096_S1x4096x1_0_1),
    TRef.nullary main_call0.c_1 (constantI S1 32 8191#32),
    TRef.nullary main_call0.c_2 (constantI S_ 32 0#32),
    TRef.unary main_call0.c_2 main_call0.v6 (broadcastInDim S1x4096x1 ![] bcast_S_S1x4096x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x4096x1 ![0, 1, 2] bcast_S1x1x1_S1x4096x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x4096x1_S1x4096_d2 h_S_),
    TRef.binary (.of main_arg1) main_call0.v5 main_call0.v13 (fun x i => Host.gather gather_S8192x1024_S1x4096x1_S1x4096x1024_2_0_n_n_0_2_11024 x i),
    TRef.unary main_call0.v12 main_call0.v14 (broadcastInDim S1x4096x1024 ![0, 1] bcast_S1x4096_S1x4096x1024_0_1),
    TRef.nullary main_call0.cst (constant S_ .f32 0x7FC00000#32),
    TRef.unary main_call0.cst main_call0.v15 (broadcastInDim S1x4096x1024 ![] bcast_S_S1x4096x1024),
    TRef.ternary main_call0.v14 main_call0.v13 main_call0.v15 main_call0.v16 select ]

set_option maxRecDepth 1024 in
/-- @main is that straight line: the two functions' definitions unfolded at their calls and the records at their
    fields, both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, for any float values, from any memory with zero counters: every weakly fair execution of
    @main terminates, and every final state has each TensorCore buffer at the operations' fold over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  What the reference's straight line leaves in its result buffer, as one term of the table: the positions, the
  wrapped positions, the in-range mask, the gathered rows and the final select, named one by one; and that the
  fold of the operations at the result buffer is that term, the two arguments unchanged.
-/
import proofs.«217626_g16260746182798_cont_week2b_915_14_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- The positions: 0, 1, …, 4095 along the one row. -/
def pos : IVec S1x4096 32 :=
  broadcastInDim S1x4096 ![1] bcast_S4096_S1x4096_1 (iotaInDim S4096 32 0)

/-- The take's wrap of a position: a position below zero has the table's height 8192 added, the others are kept. -/
def wpos : IVec S1x4096 32 :=
  select (cmpi .slt pos (broadcastInDim S1x4096 ![] bcast_S_S1x4096 (constantI S_ 32 0#32)))
    (addi pos (broadcastInDim S1x4096 ![] bcast_S_S1x4096 (constantI S_ 32 8192#32))) pos

/-- The wrapped positions as a column of one-component start indices. -/
def col : IVec S1x4096x1 32 :=
  broadcastInDim S1x4096x1 ![0, 1] bcast_S1x4096_S1x4096x1_0_1 wpos

/-- Per start index: it is at least 0 and at most 8191. -/
def inRange : IVec S1x4096x1 1 :=
  andi (cmpi .sge col (broadcastInDim S1x4096x1 ![] bcast_S_S1x4096x1 (constantI S_ 32 0#32)))
    (cmpi .sle col (broadcastInDim S1x4096x1 ![0, 1, 2] bcast_S1x1x1_S1x4096x1_0_1_2
      (broadcastInDim S1x1x1 ![2] bcast_S1_S1x1x1_2 (constantI S1 32 8191#32))))

/-- Per position: every component of its start index is in range (the conjunction over the unit axis). -/
def rowOk : IVec S1x4096 1 :=
  Host.reduce IntOp.andi inRange (constantI S_ 1 1#1) reducesTo_S1x4096x1_S1x4096_d2 h_S_

/-- The result: the table's row gathered at each start index where the position is in range, the not-a-number
    constant elsewhere. -/
def out (tab : FVec F S8192x1024 .f32) : FVec F S1x4096x1024 .f32 :=
  select (broadcastInDim S1x4096x1024 ![0, 1] bcast_S1x4096_S1x4096x1024_0_1 rowOk)
    (Host.gather gather_S8192x1024_S1x4096x1_S1x4096x1024_2_0_n_n_0_2_11024 tab col)
    (broadcastInDim S1x4096x1024 ![] bcast_S_S1x4096x1024 (constant S_ .f32 0x7FC00000#32))

attribute [local irreducible] Host.reduce Host.gather in
/-- The fold of the operations at the result buffer is that term of the table's launch contents. -/
theorem after_out (V : Valuation τ sig (Elt F)) :
    after ops V (main_v2 : DevRef τ sig) = out (V (main_arg1 : DevRef τ sig)) := by
  after_results_simp
  rfl

/-- No operation writes the integer argument. -/
theorem after_arg0 (V : Valuation τ sig (Elt F)) :
    after ops V (main_arg0 : DevRef τ sig) = V (main_arg0 : DevRef τ sig) := by
  after_results_simp

/-- No operation writes the table. -/
theorem after_arg1 (V : Valuation τ sig (Elt F)) :
    after ops V (main_arg1 : DevRef τ sig) = V (main_arg1 : DevRef τ sig) := by
  after_results_simp

end Cert.ReferenceIdeal.RefValue

end
-- ==== Proof.RefWords.lean ====
/-
  Word facts the reading of the reference needs: a 32-bit word of a natural below 4096 read as a signed integer is
  that natural, so it is not below zero, at least zero and at most 8191; and a conjunction-reduction of an array of
  ones from the initial value one is one at every result index.
-/
import Idealize.ShloMosaic.PureOps.Reduce
import Idealize.ShloMosaic.Lib.ValueIdx

namespace Cert.ReferenceIdeal.RefValue

open Idealize.ShloMosaic

/-- The 32-bit word of a natural below 4096, read signed, is the natural. -/
theorem toInt_ofNat_lt (n : Nat) (h : n < 4096) : (BitVec.ofNat 32 n).toInt = (n : Int) := by
  rw [BitVec.toInt_eq_toNat_cond, BitVec.toNat_ofNat, Nat.mod_eq_of_lt (by omega : n < 2 ^ 32)]
  rw [if_pos (by omega)]

/-- Such a word is not below zero: the signed comparison `<` against 0 answers the bit 0. -/
theorem cmpi_slt_zero (n : Nat) (h : n < 4096) : IntOp.cmpi .slt (BitVec.ofNat 32 n) 0#32 = 0#1 := by
  have h0 : (0#32 : BitVec 32).toInt = 0 := by decide
  have hb : (BitVec.ofNat 32 n).slt 0#32 = false := by
    rw [BitVec.slt_eq_decide, toInt_ofNat_lt n h, h0]
    exact decide_eq_false (by omega)
  show BitVec.ofBool ((BitVec.ofNat 32 n).slt 0#32) = 0#1
  rw [hb]; rfl

/-- Such a word is at least zero: the signed comparison `≥` against 0 answers the bit 1. -/
theorem cmpi_sge_zero (n : Nat) (h : n < 4096) : IntOp.cmpi .sge (BitVec.ofNat 32 n) 0#32 = 1#1 := by
  have h0 : (0#32 : BitVec 32).toInt = 0 := by decide
  have hb : (0#32 : BitVec 32).sle (BitVec.ofNat 32 n) = true := by
    rw [BitVec.sle_eq_decide, toInt_ofNat_lt n h, h0]
    exact decide_eq_true (by omega)
  show BitVec.ofBool ((0#32 : BitVec 32).sle (BitVec.ofNat 32 n)) = 1#1
  rw [hb]; rfl

/-- Such a word is at most 8191: the signed comparison `≤` against 8191 answers the bit 1. -/
theorem cmpi_sle_last (n : Nat) (h : n < 4096) : IntOp.cmpi .sle (BitVec.ofNat 32 n) 8191#32 = 1#1 := by
  have h0 : (8191#32 : BitVec 32).toInt = 8191 := by decide
  have hb : (BitVec.ofNat 32 n).sle 8191#32 = true := by
    rw [BitVec.sle_eq_decide, toInt_ofNat_lt n h, h0]
    exact decide_eq_true (by omega)
  show BitVec.ofBool ((BitVec.ofNat 32 n).sle 8191#32) = 1#1
  rw [hb]; rfl

/-- Such a word, read signed and clamped into `[0, 8191]`, is the natural. -/
theorem clamp_ofNat_lt (n : Nat) (h : n < 4096) : min (BitVec.ofNat 32 n).toInt.toNat 8191 = n := by
  rw [toInt_ofNat_lt n h, Int.toNat_natCast]
  omega

/-- A left fold by `and` from the bit 1 over words that are all 1 is 1. -/
theorem foldl_andi_ones {ι : Type} (x : ι → BitVec 1) (hx : ∀ i, x i = 1#1) (l : List ι) :
    l.foldl (fun r i => IntOp.andi r (x i)) 1#1 = 1#1 := by
  induction l with
  | nil => rfl
  | cons a l ih =>
    have h1 : IntOp.andi 1#1 (x a) = 1#1 := by rw [hx a]; rfl
    rw [List.foldl_cons, h1]
    exact ih

/-- A conjunction-reduction of an array whose every element is 1, from an initial value that is 1, is 1 at every
    result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x hx _

end Cert.ReferenceIdeal.RefValue
-- ==== Proof.RefGather.lean ====
/-
  The reference's gather read at an index. Its dimension numbers — offset axis 2 of the result, operand axis 0
  collapsed, the one component of a start index naming operand axis 0, slices of one row — make result entry
  (z, r, j) the table's entry at row "start index (z, r, 0), read signed and clamped into [0, 8191]" and column j.
-/
import proofs.«217626_g16260746182798_cont_week2b_915_14_alg».proof.ReferenceIdeal
import Idealize.ShloMosaic.Lib.ValueIdx

namespace Cert.ReferenceIdeal.RefValue

open Cert.ReferenceIdeal Idealize.ShloMosaic Idealize.ShloMosaic.ValueIdx

variable [Cert.ReferenceIdeal.Facts₀]

/-- The reference's gather's dimension numbers, under a short name (reducible: the same term). -/
abbrev gd : GatherDims S8192x1024 S1x4096x1 S1x4096x1024 := gather_S8192x1024_S1x4096x1_S1x4096x1024_2_0_n_n_0_2_11024

/-- No operand axis is a batching axis. -/
theorem gather_batch (y : S1x4096x1024.Idx) (a : Fin 2) : gd.batchCoord y a = 0 :=
  gd.batchCoord_eq_zero y a List.not_mem_nil

/-- On the row axis the slice starts at the start index's one component, read signed and clamped. -/
theorem gather_start_row {w : Nat} (idx : IVec S1x4096x1 w) (z : Fin 1) (r : Fin 4096) (j : Fin 1024) :
    gd.start (ix3 z r j) idx (0 : Fin 2) = min (idx (ix3 z r (0 : Fin 1))).toInt.toNat 8191 := by
  unfold GatherDims.start
  rw [dif_pos (show (0 : Fin 2) ∈ gd.startIndexMap from List.mem_singleton.mpr rfl)]
  have hsi : gd.siIdx (ix3 z r j) ⟨List.idxOf (0 : Fin 2) gd.startIndexMap,
      List.idxOf_lt_length_iff.2 (List.mem_singleton.mpr rfl)⟩ = ix3 z r (0 : Fin 1) := by
    funext b; refine Fin.ext ?_
    match b with
    | ⟨0, _⟩ => rfl
    | ⟨1, _⟩ => rfl
    | ⟨2, _⟩ => rfl
  rw [hsi]
  rfl

/-- On the column axis the slice starts at 0: no component of a start index names it. -/
theorem gather_start_col {w : Nat} (idx : IVec S1x4096x1 w) (y : S1x4096x1024.Idx) :
    gd.start y idx (1 : Fin 2) = 0 := by
  unfold GatherDims.start
  rw [dif_neg (show ¬ (1 : Fin 2) ∈ gd.startIndexMap from fun h => absurd (List.mem_singleton.mp h) (by decide))]

/-- The row axis is collapsed: no offset along it. -/
theorem gather_off_row (y : S1x4096x1024.Idx) : gd.offCoord y (0 : Fin 2) = 0 :=
  gd.offCoord_eq_zero y _ (fun h => ((gd.mem_sKept _).mp h).1 (List.mem_singleton.mpr rfl))

/-- The column axis is the one kept axis: the offset along it is the result's coordinate on its offset axis 2. -/
theorem gather_off_col (z : Fin 1) (r : Fin 4096) (j : Fin 1024) : gd.offCoord (ix3 z r j) (1 : Fin 2) = j.val := by
  unfold GatherDims.offCoord
  rw [dif_pos ((gd.mem_sKept (1 : Fin 2)).mpr
    ⟨fun h => absurd (List.mem_singleton.mp h) (by decide), List.not_mem_nil⟩)]
  rfl

/-- THE GATHER READ AT `(z, r, j)`: the table at row "start index `(z, r, 0)`, read signed and clamped into
    `[0, 8191]`", column `j`. -/
theorem gather_rows_apply {α : Type} {w : Nat} (x : S8192x1024.Idx → α) (idx : IVec S1x4096x1 w)
    (z : Fin 1) (r : Fin 4096) (j : Fin 1024) :
    Host.gather gather_S8192x1024_S1x4096x1_S1x4096x1024_2_0_n_n_0_2_11024 x idx (ix3 z r j)
      = x (ix2 (⟨min (idx (ix3 z r (0 : Fin 1))).toInt.toNat 8191, by omega⟩ : Fin 8192) j) := by
  unfold Host.gather
  refine congrArg x ?_
  funext a
  refine Fin.ext ?_
  match a with
  | ⟨0, _⟩ =>
    show gd.start (ix3 z r j) idx (0 : Fin 2) + gd.batchCoord (ix3 z r j) (0 : Fin 2) + gd.offCoord (ix3 z r j) (0 : Fin 2)
      = min (idx (ix3 z r (0 : Fin 1))).toInt.toNat 8191
    rw [gather_start_row, gather_batch, gather_off_row]
    rfl
  | ⟨1, _⟩ =>
    show gd.start (ix3 z r j) idx (1 : Fin 2) + gd.batchCoord (ix3 z r j) (1 : Fin 2) + gd.offCoord (ix3 z r j) (1 : Fin 2)
      = j.val
    rw [gather_start_col, gather_batch, gather_off_col]
    exact Nat.zero_add _

end Cert.ReferenceIdeal.RefValue
-- ==== Proof.RefRead.lean ====
/-
  The reference's result term read at an index, down to the table. The positions are 0, 1, …, 4095: none is below
  zero, so the wrap keeps each; each is at least 0 and at most 8191, so the in-range mask is all ones and the clamp
  inside the gather is the identity. Entry (z, r, j) of the result is entry (r, j) of the table: the result is the
  specification's function of the table.
-/
import proofs.«217626_g16260746182798_cont_week2b_915_14_alg».proof.Proof.RefTerm
import proofs.«217626_g16260746182798_cont_week2b_915_14_alg».proof.Proof.RefWords
import proofs.«217626_g16260746182798_cont_week2b_915_14_alg».proof.Proof.RefGather
import proofs.«217626_g16260746182798_cont_week2b_915_14_alg».proof.Proof.Spec

noncomputable section

namespace Cert.ReferenceIdeal.RefValue

open Cert.ReferenceIdeal Idealize.ShloMosaic Idealize.ShloMosaic.ValueIdx
open Cert.ReferenceIdeal.Facts₀ Cert.ReferenceIdeal.Facts

variable [Cert.ReferenceIdeal.Facts]
variable {F : FTy → Type} [FloatOps F]

/-- The position at column `r` of the one row is the 32-bit word of `r`. -/
theorem pos_apply (k : S1x4096.Idx) : pos k = BitVec.ofNat 32 (k 1).val := rfl

/-- The wrap keeps it: it is not below zero. -/
theorem wpos_apply (k : S1x4096.Idx) : wpos k = BitVec.ofNat 32 (k 1).val := by
  have hlt : (k 1).val < 4096 := (k 1).isLt
  show Scalar.select (IntOp.cmpi .slt (pos k) 0#32) (IntOp.addi (pos k) 8192#32) (pos k) = _
  rw [pos_apply, cmpi_slt_zero _ hlt, select_zero]

/-- The start index of position `r` is the 32-bit word of `r`. -/
theorem col_apply (i : S1x4096x1.Idx) : col i = BitVec.ofNat 32 (i 1).val :=
  (wpos_apply _).trans rfl

/-- Every start index is in range. -/
theorem inRange_apply (i : S1x4096x1.Idx) : inRange i = 1#1 := by
  have hlt : (i 1).val < 4096 := (i 1).isLt
  show IntOp.andi (IntOp.cmpi .sge (col i) 0#32) (IntOp.cmpi .sle (col i) 8191#32) = 1#1
  rw [col_apply, cmpi_sge_zero _ hlt, cmpi_sle_last _ hlt]
  rfl

/-- So the mask is 1 at every position. -/
theorem rowOk_apply (k : S1x4096.Idx) : rowOk k = 1#1 :=
  reduce_andi_ones inRange _ _ _ inRange_apply (fun _ => rfl) k

/-- Entry `(z, r, j)` of the result is entry `(r, j)` of the table. -/
theorem out_apply (tab : FVec F S8192x1024 .f32) (z : Fin 1) (r : Fin 4096) (j : Fin 1024) :
    out tab (ix3 z r j) = tab (ix2 (Fin.castLE (by decide : 4096 ≤ 8192) r) j) := by
  show Scalar.select (rowOk _)
      (Host.gather gather_S8192x1024_S1x4096x1_S1x4096x1024_2_0_n_n_0_2_11024 tab col (ix3 z r j)) _ = _
  rw [rowOk_apply, select_one, gather_rows_apply]
  refine congrArg (fun q : Fin 8192 => tab (ix2 q j)) (Fin.ext ?_)
  show min (col (ix3 z r (0 : Fin 1))).toInt.toNat 8191 = r.val
  rw [col_apply]
  exact clamp_ofNat_lt r.val r.isLt

/-- The result is the specification's function of the table. -/
theorem out_eq_result (tab : FVec F S8192x1024 .f32) : out tab = Cert.Spec.result tab := by
  funext i
  obtain ⟨z, r, j, rfl⟩ : ∃ (z : Fin 1) (r : Fin 4096) (j : Fin 1024), i = ix3 z r j :=
    ⟨i 0, i 1, i 2, eq_ix3 i⟩
  exact (out_apply tab z r j).trans (Cert.Spec.result_apply tab z r j).symm

end Cert.ReferenceIdeal.RefValue

end
-- ==== Proof.RefRun.lean ====
/-
  The reference's run, read as one function of the table: every weakly fair execution of the reference program
  terminates, its result buffer holds the specification's function of the table's launch contents — entry (0, r, j)
  is entry (r, j) of the table — and both argument buffers hold what they held at launch. No precondition: the
  integer argument is never read, and no property of the table's values is used.
-/
import proofs.«217626_g16260746182798_cont_week2b_915_14_alg».proof.ReferenceIdeal
import proofs.«217626_g16260746182798_cont_week2b_915_14_alg».proof.Proof.Gen.ReferenceIdeal
import proofs.«217626_g16260746182798_cont_week2b_915_14_alg».proof.Proof.Spec
import proofs.«217626_g16260746182798_cont_week2b_915_14_alg».proof.Proof.RefOps
import proofs.«217626_g16260746182798_cont_week2b_915_14_alg».proof.Proof.RefTerm
import proofs.«217626_g16260746182798_cont_week2b_915_14_alg».proof.Proof.RefRead
import Idealize.ShloMosaic.PureOps.Ideal

noncomputable section

namespace Cert.ReferenceIdeal.RefValue

open Idealize.ShloMosaic Idealize.ShloMosaic.TcCoe Idealize.SL.Sem Idealize.ShloMosaic.StableHlo

theorem run [Cert.ReferenceIdeal.Facts]
    (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v2)
          = Cert.Spec.result (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono
    (fun _ h c =>
      ⟨(h c Cert.ReferenceIdeal.main_v2).trans ((after_out (launchContents m c)).trans (out_eq_result _)),
        (h c Cert.ReferenceIdeal.main_arg0).trans (after_arg0 (launchContents m c)),
        (h c Cert.ReferenceIdeal.main_arg1).trans (after_arg1 (launchContents m c))⟩)
    (run_after m ρ)

end Cert.ReferenceIdeal.RefValue

end
-- ==== Proof.KernelSetup.lean ====
import proofs.«217626_g16260746182798_cont_week2b_915_14_alg».proof.Kernel
import proofs.«217626_g16260746182798_cont_week2b_915_14_alg».proof.Proof.Gen.Kernel
import proofs.«217626_g16260746182798_cont_week2b_915_14_alg».proof.Proof.Gen.Kernel.Skeleton
import proofs.«217626_g16260746182798_cont_week2b_915_14_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.Kernel.Frame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

local notation "tW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S4096x1024 EltTy.f32)
local notation "b0W" => (Memref.whole Cert.Kernel.cc0_scratch0 : Memref Cert.Kernel.sig Kind.scVector Space.vmem Cert.Kernel.S32x1024 EltTy.f32)
local notation "b1W" => (Memref.whole Cert.Kernel.cc0_scratch1 : Memref Cert.Kernel.sig Kind.scVector Space.vmem Cert.Kernel.S32x1024 EltTy.f32)
local notation "b2W" => (Memref.whole Cert.Kernel.cc0_scratch2 : Memref Cert.Kernel.sig Kind.scVector Space.vmem Cert.Kernel.S32x1024 EltTy.f32)

/-- The position input, the table, the row block the kernel writes, and the result, as locations of device `d`. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

/-- Chunk number `8 s + 4 c + r` of 32 rows: the rows vector subcore `s` of SparseCore `c` moves in its `r`-th copy,
    rows `256 s + 128 c + 32 r` … `+ 31`, in the table and in the row block. -/
def tSet (cn sn rn : ℕ) : Finset S8192x1024.Idx := Finset.univ.filter fun i => (i 0).val / 32 = 8 * sn + 4 * cn + rn
def oSet (cn sn rn : ℕ) : Finset S4096x1024.Idx := Finset.univ.filter fun i => (i 0).val / 32 = 8 * sn + 4 * cn + rn

theorem mem_tSet {cn sn rn : ℕ} {i : S8192x1024.Idx} : i ∈ tSet cn sn rn ↔ (i 0).val / 32 = 8 * sn + 4 * cn + rn := by
  unfold tSet; rw [Finset.mem_filter]; exact ⟨fun h => h.2, fun h => ⟨Finset.mem_univ _, h⟩⟩
theorem mem_oSet {cn sn rn : ℕ} {i : S4096x1024.Idx} : i ∈ oSet cn sn rn ↔ (i 0).val / 32 = 8 * sn + 4 * cn + rn := by
  unfold oSet; rw [Finset.mem_filter]; exact ⟨fun h => h.2, fun h => ⟨Finset.mem_univ _, h⟩⟩

/-- The rows a copy's table slice names are that chunk. -/
theorem set_tRect (L : grid0.Coords) (r : Fin 4) :
    (Rect.unit (s := S8192x1024) (k0_off1 L (BitVec.ofNat 32 (32 * r.val))) S32x1024.size (k0_off1_inb L r)).set = tSet (L 0).val (L 1).val r.val := by
  ext i
  rw [Rect.mem_set_unit, mem_tSet, k0_off1_eq L r]
  have h1 : (i 1).val < 1024 := (i 1).isLt
  constructor
  · intro h
    have h0 := h 0
    have e0 : (![256 * (L 1).val + 128 * (L 0).val + 32 * r.val, 0] : Fin 2 → ℕ) 0 = 256 * (L 1).val + 128 * (L 0).val + 32 * r.val := rfl
    have s0 : S32x1024.size 0 = 32 := rfl
    rw [e0, s0] at h0
    omega
  · intro h a
    match a with
    | ⟨0, _⟩ =>
      show 256 * (L 1).val + 128 * (L 0).val + 32 * r.val ≤ (i 0).val ∧ (i 0).val < 256 * (L 1).val + 128 * (L 0).val + 32 * r.val + 32
      omega
    | ⟨1, _⟩ =>
      show 0 ≤ (i 1).val ∧ (i 1).val < 0 + 1024
      omega
theorem set_oRect (L : grid0.Coords) (r : Fin 4) :
    (Rect.unit (s := S4096x1024) (k0_off2 L (BitVec.ofNat 32 (32 * r.val))) S32x1024.size (k0_off2_inb L r)).set = oSet (L 0).val (L 1).val r.val := by
  ext i
  rw [Rect.mem_set_unit, mem_oSet, k0_off2_eq L r]
  have h1 : (i 1).val < 1024 := (i 1).isLt
  constructor
  · intro h
    have h0 := h 0
    have e0 : (![256 * (L 1).val + 128 * (L 0).val + 32 * r.val, 0] : Fin 2 → ℕ) 0 = 256 * (L 1).val + 128 * (L 0).val + 32 * r.val := rfl
    have s0 : S32x1024.size 0 = 32 := rfl
    rw [e0, s0] at h0
    omega
  · intro h a
    match a with
    | ⟨0, _⟩ =>
      show 256 * (L 1).val + 128 * (L 0).val + 32 * r.val ≤ (i 0).val ∧ (i 0).val < 256 * (L 1).val + 128 * (L 0).val + 32 * r.val + 32
      omega
    | ⟨1, _⟩ =>
      show 0 ≤ (i 1).val ∧ (i 1).val < 0 + 1024
      omega

/-! ## What the handshakes carry -/

variable [FloatOps F]

/-- The table's first 4096 rows, as contents of the row block. -/
abbrev rowsOf (d : Dev nD) : Buf (Elt F) (oLoc d) := Cert.Spec.rows (m (tLoc d))

abbrev tPiece (d : Dev nD) (cn sn rn : ℕ) : sProp 𝕄 := tLoc d ↦[tSet cn sn rn]{fullShare} m (tLoc d)
abbrev oPiece (d : Dev nD) (cn sn rn : ℕ) (f : Buf (Elt F) (oLoc d)) : sProp 𝕄 := oLoc d ↦[oSet cn sn rn]{fullShare} f

/-- A task's operands: its four chunks of the table and of the row block; its results: the same chunks, the row
    block's now at the table's rows. -/
def goRes (d : Dev nD) (cn sn : ℕ) : sProp 𝕄 :=
  bigSep (Finset.univ : Finset (Fin 4)) fun r => iprop(tPiece m d cn sn r.val ∗ oPiece d cn sn r.val (m (oLoc d)))
def tdRes (d : Dev nD) (cn sn : ℕ) : sProp 𝕄 :=
  bigSep (Finset.univ : Finset (Fin 4)) fun r => iprop(tPiece m d cn sn r.val ∗ oPiece d cn sn r.val (rowsOf m d))

omit [FloatOps F] in
theorem fin4 (Φ : Fin 4 → sProp 𝕄) : bigSep (Finset.univ : Finset (Fin 4)) Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

instance goRes_storable (d : Dev nD) (cn sn : ℕ) : BI.Storable (upEmb : UEmb _ 𝕄) (goRes m d cn sn) := by
  unfold goRes; rw [fin4]; infer_instance
instance tdRes_storable (d : Dev nD) (cn sn : ℕ) : BI.Storable (upEmb : UEmb _ 𝕄) (tdRes m d cn sn) := by
  unfold tdRes; rw [fin4]; infer_instance

def P : (K (F := F)).Pay (nD := nD) (Val := Elt F) (Name := ℕ) (U := UU) where
  st := fun q d c => bigSep Finset.univ fun i : Fin ((K (F := F)).nSub q) => goRes m d c.val i.val
  dn := fun q d c => bigSep Finset.univ fun i : Fin ((K (F := F)).nSub q) => tdRes m d c.val i.val
  go := fun _ d c i => goRes m d c.val i.val
  td := fun _ d c i => tdRes m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Kernel.Frame

end
-- ==== Proof.KernelBody.lean ====
import proofs.«217626_g16260746182798_cont_week2b_915_14_alg».proof.Proof.KernelSetup

noncomputable section

namespace Cert.Kernel.Frame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S4096x1024 EltTy.f32)
local notation "b0W" => (Memref.whole Cert.Kernel.cc0_scratch0 : Memref Cert.Kernel.sig Kind.scVector Space.vmem Cert.Kernel.S32x1024 EltTy.f32)
local notation "b1W" => (Memref.whole Cert.Kernel.cc0_scratch1 : Memref Cert.Kernel.sig Kind.scVector Space.vmem Cert.Kernel.S32x1024 EltTy.f32)
local notation "b2W" => (Memref.whole Cert.Kernel.cc0_scratch2 : Memref Cert.Kernel.sig Kind.scVector Space.vmem Cert.Kernel.S32x1024 EltTy.f32)

variable [FloatOps F]

/-! ## One vector subcore's task -/

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

/-- The table's and the row block's slices a task's four copies name, spelt as the body slices them. -/
abbrev tCh0 (L : grid0.Coords) : Memref sig .scVector .hbm S32x1024 .f32 :=
  (tW).slice (Rect.unit (s := S8192x1024) (k0_off1 L 0#32) S32x1024.size (k0_off1_inb L 0)) (fun _ => rfl)
abbrev oCh0 (L : grid0.Coords) : Memref sig .scVector .hbm S32x1024 .f32 :=
  (oW).slice (Rect.unit (s := S4096x1024) (k0_off2 L 0#32) S32x1024.size (k0_off2_inb L 0)) (fun _ => rfl)
abbrev tCh1 (L : grid0.Coords) : Memref sig .scVector .hbm S32x1024 .f32 :=
  (tW).slice (Rect.unit (s := S8192x1024) (k0_off1 L 32#32) S32x1024.size (k0_off1_inb L 1)) (fun _ => rfl)
abbrev oCh1 (L : grid0.Coords) : Memref sig .scVector .hbm S32x1024 .f32 :=
  (oW).slice (Rect.unit (s := S4096x1024) (k0_off2 L 32#32) S32x1024.size (k0_off2_inb L 1)) (fun _ => rfl)
abbrev tCh2 (L : grid0.Coords) : Memref sig .scVector .hbm S32x1024 .f32 :=
  (tW).slice (Rect.unit (s := S8192x1024) (k0_off1 L 64#32) S32x1024.size (k0_off1_inb L 2)) (fun _ => rfl)
abbrev oCh2 (L : grid0.Coords) : Memref sig .scVector .hbm S32x1024 .f32 :=
  (oW).slice (Rect.unit (s := S4096x1024) (k0_off2 L 64#32) S32x1024.size (k0_off2_inb L 2)) (fun _ => rfl)
abbrev tCh3 (L : grid0.Coords) : Memref sig .scVector .hbm S32x1024 .f32 :=
  (tW).slice (Rect.unit (s := S8192x1024) (k0_off1 L 96#32) S32x1024.size (k0_off1_inb L 3)) (fun _ => rfl)
abbrev oCh3 (L : grid0.Coords) : Memref sig .scVector .hbm S32x1024 .f32 :=
  (oW).slice (Rect.unit (s := S4096x1024) (k0_off2 L 96#32) S32x1024.size (k0_off2_inb L 3)) (fun _ => rfl)

omit [FloatOps F] in
theorem set_tCh (r : Fin 4) :
    (((tW).slice (Rect.unit (s := S8192x1024) (k0_off1 L (BitVec.ofNat 32 (32 * r.val))) S32x1024.size (k0_off1_inb L r)) (fun _ => rfl)).view.set)
      = tSet (L 0).val (L 1).val r.val := by
  show ((View.whole (main_arg1_scv : Ref sig .scVector)).slice _).set = _
  rw [View.set_slice_whole]; exact set_tRect L r
omit [FloatOps F] in
theorem set_oCh (r : Fin 4) :
    (((oW).slice (Rect.unit (s := S4096x1024) (k0_off2 L (BitVec.ofNat 32 (32 * r.val))) S32x1024.size (k0_off2_inb L r)) (fun _ => rfl)).view.set)
      = oSet (L 0).val (L 1).val r.val := by
  show ((View.whole (main_v0_scv : Ref sig .scVector)).slice _).set = _
  rw [View.set_slice_whole]; exact set_oRect L r

omit [FloatOps F] in
theorem pts_tCh0 (f : Buf (Elt F) (tLoc d)) :
    ((tCh0 L).view.loc (thrV d L) ↦[(tCh0 L).view.set]{fullShare} f : sProp 𝕄) = tLoc d ↦[tSet (L 0).val (L 1).val (0 : Fin 4).val]{fullShare} f := by
  rw [show (tCh0 L).view.set = tSet (L 0).val (L 1).val (0 : Fin 4).val from set_tCh L 0]
omit [FloatOps F] in
theorem pts_oCh0 (f : Buf (Elt F) (oLoc d)) :
    ((oCh0 L).view.loc (thrV d L) ↦[(oCh0 L).view.set]{fullShare} f : sProp 𝕄) = oLoc d ↦[oSet (L 0).val (L 1).val (0 : Fin 4).val]{fullShare} f := by
  rw [show (oCh0 L).view.set = oSet (L 0).val (L 1).val (0 : Fin 4).val from set_oCh L 0]
omit [FloatOps F] in
theorem pts_tCh1 (f : Buf (Elt F) (tLoc d)) :
    ((tCh1 L).view.loc (thrV d L) ↦[(tCh1 L).view.set]{fullShare} f : sProp 𝕄) = tLoc d ↦[tSet (L 0).val (L 1).val (1 : Fin 4).val]{fullShare} f := by
  rw [show (tCh1 L).view.set = tSet (L 0).val (L 1).val (1 : Fin 4).val from set_tCh L 1]
omit [FloatOps F] in
theorem pts_oCh1 (f : Buf (Elt F) (oLoc d)) :
    ((oCh1 L).view.loc (thrV d L) ↦[(oCh1 L).view.set]{fullShare} f : sProp 𝕄) = oLoc d ↦[oSet (L 0).val (L 1).val (1 : Fin 4).val]{fullShare} f := by
  rw [show (oCh1 L).view.set = oSet (L 0).val (L 1).val (1 : Fin 4).val from set_oCh L 1]
omit [FloatOps F] in
theorem pts_tCh2 (f : Buf (Elt F) (tLoc d)) :
    ((tCh2 L).view.loc (thrV d L) ↦[(tCh2 L).view.set]{fullShare} f : sProp 𝕄) = tLoc d ↦[tSet (L 0).val (L 1).val (2 : Fin 4).val]{fullShare} f := by
  rw [show (tCh2 L).view.set = tSet (L 0).val (L 1).val (2 : Fin 4).val from set_tCh L 2]
omit [FloatOps F] in
theorem pts_oCh2 (f : Buf (Elt F) (oLoc d)) :
    ((oCh2 L).view.loc (thrV d L) ↦[(oCh2 L).view.set]{fullShare} f : sProp 𝕄) = oLoc d ↦[oSet (L 0).val (L 1).val (2 : Fin 4).val]{fullShare} f := by
  rw [show (oCh2 L).view.set = oSet (L 0).val (L 1).val (2 : Fin 4).val from set_oCh L 2]
omit [FloatOps F] in
theorem pts_tCh3 (f : Buf (Elt F) (tLoc d)) :
    ((tCh3 L).view.loc (thrV d L) ↦[(tCh3 L).view.set]{fullShare} f : sProp 𝕄) = tLoc d ↦[tSet (L 0).val (L 1).val (3 : Fin 4).val]{fullShare} f := by
  rw [show (tCh3 L).view.set = tSet (L 0).val (L 1).val (3 : Fin 4).val from set_tCh L 3]
omit [FloatOps F] in
theorem pts_oCh3 (f : Buf (Elt F) (oLoc d)) :
    ((oCh3 L).view.loc (thrV d L) ↦[(oCh3 L).view.set]{fullShare} f : sProp 𝕄) = oLoc d ↦[oSet (L 0).val (L 1).val (3 : Fin 4).val]{fullShare} f := by
  rw [show (oCh3 L).view.set = oSet (L 0).val (L 1).val (3 : Fin 4).val from set_oCh L 3]

omit [FloatOps F] in
theorem pts_b0 (f : Buf (Elt F) ((thrV d L).loc cc0_scratch0)) :
    ((b0W).view.loc (thrV d L) ↦{fullShare} f : sProp 𝕄) = (thrV d L).loc cc0_scratch0 ↦{fullShare} f := rfl
omit [FloatOps F] in
theorem pts_b1 (f : Buf (Elt F) ((thrV d L).loc cc0_scratch1)) :
    ((b1W).view.loc (thrV d L) ↦{fullShare} f : sProp 𝕄) = (thrV d L).loc cc0_scratch1 ↦{fullShare} f := rfl
omit [FloatOps F] in
theorem pts_b2 (f : Buf (Elt F) ((thrV d L).loc cc0_scratch2)) :
    ((b2W).view.loc (thrV d L) ↦{fullShare} f : sProp 𝕄) = (thrV d L).loc cc0_scratch2 ↦{fullShare} f := rfl

/-- The task's six DMA semaphores are all of a vector subcore's scoped cells of that kind. -/
abbrev dcell (d : Dev nD) (L : grid0.Coords) (k : DmaSem sig) : GSem nD τ sig := (thrV d L, .dma k)

omit [FloatOps F] in
theorem ownSems0_V :
    (ownSems0 (thrV d L) : sProp 𝕄)
      = iprop((semVal (dcell d L cc0_scratch3.sem) 0 ∗ semVal (dcell d L cc0_scratch4.sem) 0 ∗ semVal (dcell d L cc0_scratch5.sem) 0
          ∗ semVal (dcell d L cc0_scratch6.sem) 0 ∗ semVal (dcell d L cc0_scratch7.sem) 0 ∗ semVal (dcell d L cc0_scratch8.sem) 0)
          ∗ bigSep (ownCells (thrV d L) \ (Finset.univ.image fun k : DmaSem sig => dcell d L k)) fun g => semVal g 0) := by
  unfold SparseCore.Cfg.ownSems0
  rw [SparseCore.bigSep_sdiff_split' (t := Finset.univ.image fun k : DmaSem sig => dcell d L k) ?sub,
    SparseCore.bigSep_image_of_injOn (fun a _ b _ e => SemLoc.dma.inj (Prod.mk.inj e).2)]
  case sub =>
    intro g hg
    obtain ⟨k, -, rfl⟩ := Finset.mem_image.mp hg
    exact mem_ownCells.mpr ⟨rfl, (by decide : ∀ k : DmaSem sig, (SemLoc.dma k : SemLoc sig).isScoped .scVector = true) k⟩
  rw [show (Finset.univ : Finset (DmaSem sig)) = {cc0_scratch3.sem, cc0_scratch4.sem, cc0_scratch5.sem, cc0_scratch6.sem, cc0_scratch7.sem, cc0_scratch8.sem} by decide,
    SparseCore.bigSep_insert' (by decide), SparseCore.bigSep_insert' (by decide), SparseCore.bigSep_insert' (by decide),
    SparseCore.bigSep_insert' (by decide), SparseCore.bigSep_insert' (by decide), bigSep_singleton]

omit [FloatOps F] in
/-- The three chunk buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## What a copied chunk holds -/

omit [FloatOps F] in
/-- A whole buffer written whole and read back whole gives back what was written. -/
theorem whole_rt {κ : Kind} (b : Ref sig κ) (fb Y : b.ty.Contents (Elt F)) :
    ReadAs.same.apply (View.read (Elt F) (Memref.whole b).view (View.write (Elt F) (Memref.whole b).view fb (ReadAs.same.apply Y) Finset.univ)) = Y := by
  simp only [ReadAs.apply_same, Memref.view_whole, View.write_whole_univ, View.read_whole]

/-- A chunk of the row block, once the table's chunk at the SAME row offset has been written through it, holds the
    table's rows at every element of the chunk: element `y` of either chunk sits at row `offset + y₀`, column `y₁`,
    and the two offsets are one expression of the subcore's coordinates and the copy's word `w`. -/
theorem out_val (w : BitVec 32) (hin1 : ∀ a, k0_off1 L w a + S32x1024.size a ≤ S8192x1024.size a)
    (hin2 : ∀ a, k0_off2 L w a + S32x1024.size a ≤ S4096x1024.size a) (g : Buf (Elt F) (oLoc d)) (X : S32x1024.Idx → Elt F .f32)
    (hX : X = View.read (Elt F) ((tW).slice (Rect.unit (s := S8192x1024) (k0_off1 L w) S32x1024.size hin1) (fun _ => rfl)).view (m (tLoc d)))
    (i : S4096x1024.Idx) (hi : i ∈ ((oW).slice (Rect.unit (s := S4096x1024) (k0_off2 L w) S32x1024.size hin2) (fun _ => rfl)).view.set) :
    View.writes ((oW).slice (Rect.unit (s := S4096x1024) (k0_off2 L w) S32x1024.size hin2) (fun _ => rfl)).view
      (Elt F) g [⟨Rect.whole S32x1024, X⟩] i = rowsOf m d i := by
  subst hX
  obtain ⟨y, -, rfl⟩ := Finset.mem_map.mp hi
  rw [View.writes_singleton]
  have e1 : ((((oW).slice (Rect.unit (s := S4096x1024) (k0_off2 L w) S32x1024.size hin2) (fun _ => rfl)).view.slice (Rect.whole S32x1024)).emb y
      = ((oW).slice (Rect.unit (s := S4096x1024) (k0_off2 L w) S32x1024.size hin2) (fun _ => rfl)).view.emb y) := by
    rw [View.emb_slice, Function.Embedding.trans_apply]
    exact congrArg _ (Rect.emb_whole_apply S32x1024 y)
  rw [← e1, View.write_emb_of_mem _ _ (Finset.mem_univ y), e1]
  refine (cast_eq _ _).trans ?_
  rw [View.read_apply]
  refine (cast_eq _ _).trans ?_
  unfold rowsOf Cert.Spec.rows
  refine congrArg (m (tLoc d)) ?_
  funext a
  apply Fin.ext
  match a with
  | ⟨0, _⟩ => rfl
  | ⟨1, _⟩ => rfl

theorem out_key0 (fb : Buf (Elt F) ((thrV d L).loc cc0_scratch0)) :
    ∀ i ∈ (oCh0 L).view.set, ((oCh0 L).view.writes (Elt F) (m (oLoc d)) [⟨Rect.whole S32x1024,
          ReadAs.same.apply (View.read (Elt F) (b0W).view (View.write (Elt F) (b0W).view fb
            (ReadAs.same.apply (View.read (Elt F) (tCh0 L).view (m (tLoc d)))) Finset.univ))⟩]) i = rowsOf m d i :=
  fun i hi => out_val m d L 0#32 (k0_off1_inb L 0) (k0_off2_inb L 0) (m (oLoc d)) _
    (whole_rt (F := F) (cc0_scratch0 : Ref sig .scVector) fb (View.read (Elt F) (tCh0 L).view (m (tLoc d)))) i hi
theorem out_fix0 (fb : Buf (Elt F) ((thrV d L).loc cc0_scratch0)) :
    ((oCh0 L).view.loc (thrV d L) ↦[(oCh0 L).view.set]{fullShare}
        (oCh0 L).view.writes (Elt F) (m (oLoc d)) [⟨Rect.whole S32x1024,
          ReadAs.same.apply (View.read (Elt F) (b0W).view (View.write (Elt F) (b0W).view fb
            (ReadAs.same.apply (View.read (Elt F) (tCh0 L).view (m (tLoc d)))) Finset.univ))⟩] : sProp 𝕄)
      = oLoc d ↦[oSet (L 0).val (L 1).val (0 : Fin 4).val]{fullShare} rowsOf m d := by
  rw [pointsTo_congr (out_key0 m d L fb), show (oCh0 L).view.set = oSet (L 0).val (L 1).val (0 : Fin 4).val from set_oCh L 0]
theorem out_key1 (fb : Buf (Elt F) ((thrV d L).loc cc0_scratch1)) :
    ∀ i ∈ (oCh1 L).view.set, ((oCh1 L).view.writes (Elt F) (m (oLoc d)) [⟨Rect.whole S32x1024,
          ReadAs.same.apply (View.read (Elt F) (b1W).view (View.write (Elt F) (b1W).view fb
            (ReadAs.same.apply (View.read (Elt F) (tCh1 L).view (m (tLoc d)))) Finset.univ))⟩]) i = rowsOf m d i :=
  fun i hi => out_val m d L 32#32 (k0_off1_inb L 1) (k0_off2_inb L 1) (m (oLoc d)) _
    (whole_rt (F := F) (cc0_scratch1 : Ref sig .scVector) fb (View.read (Elt F) (tCh1 L).view (m (tLoc d)))) i hi
theorem out_fix1 (fb : Buf (Elt F) ((thrV d L).loc cc0_scratch1)) :
    ((oCh1 L).view.loc (thrV d L) ↦[(oCh1 L).view.set]{fullShare}
        (oCh1 L).view.writes (Elt F) (m (oLoc d)) [⟨Rect.whole S32x1024,
          ReadAs.same.apply (View.read (Elt F) (b1W).view (View.write (Elt F) (b1W).view fb
            (ReadAs.same.apply (View.read (Elt F) (tCh1 L).view (m (tLoc d)))) Finset.univ))⟩] : sProp 𝕄)
      = oLoc d ↦[oSet (L 0).val (L 1).val (1 : Fin 4).val]{fullShare} rowsOf m d := by
  rw [pointsTo_congr (out_key1 m d L fb), show (oCh1 L).view.set = oSet (L 0).val (L 1).val (1 : Fin 4).val from set_oCh L 1]
theorem out_key2 (fb : Buf (Elt F) ((thrV d L).loc cc0_scratch2)) :
    ∀ i ∈ (oCh2 L).view.set, ((oCh2 L).view.writes (Elt F) (m (oLoc d)) [⟨Rect.whole S32x1024,
          ReadAs.same.apply (View.read (Elt F) (b2W).view (View.write (Elt F) (b2W).view fb
            (ReadAs.same.apply (View.read (Elt F) (tCh2 L).view (m (tLoc d)))) Finset.univ))⟩]) i = rowsOf m d i :=
  fun i hi => out_val m d L 64#32 (k0_off1_inb L 2) (k0_off2_inb L 2) (m (oLoc d)) _
    (whole_rt (F := F) (cc0_scratch2 : Ref sig .scVector) fb (View.read (Elt F) (tCh2 L).view (m (tLoc d)))) i hi
theorem out_fix2 (fb : Buf (Elt F) ((thrV d L).loc cc0_scratch2)) :
    ((oCh2 L).view.loc (thrV d L) ↦[(oCh2 L).view.set]{fullShare}
        (oCh2 L).view.writes (Elt F) (m (oLoc d)) [⟨Rect.whole S32x1024,
          ReadAs.same.apply (View.read (Elt F) (b2W).view (View.write (Elt F) (b2W).view fb
            (ReadAs.same.apply (View.read (Elt F) (tCh2 L).view (m (tLoc d)))) Finset.univ))⟩] : sProp 𝕄)
      = oLoc d ↦[oSet (L 0).val (L 1).val (2 : Fin 4).val]{fullShare} rowsOf m d := by
  rw [pointsTo_congr (out_key2 m d L fb), show (oCh2 L).view.set = oSet (L 0).val (L 1).val (2 : Fin 4).val from set_oCh L 2]
theorem out_key3 (fb : Buf (Elt F) ((thrV d L).loc cc0_scratch0)) :
    ∀ i ∈ (oCh3 L).view.set, ((oCh3 L).view.writes (Elt F) (m (oLoc d)) [⟨Rect.whole S32x1024,
          ReadAs.same.apply (View.read (Elt F) (b0W).view (View.write (Elt F) (b0W).view fb
            (ReadAs.same.apply (View.read (Elt F) (tCh3 L).view (m (tLoc d)))) Finset.univ))⟩]) i = rowsOf m d i :=
  fun i hi => out_val m d L 96#32 (k0_off1_inb L 3) (k0_off2_inb L 3) (m (oLoc d)) _
    (whole_rt (F := F) (cc0_scratch0 : Ref sig .scVector) fb (View.read (Elt F) (tCh3 L).view (m (tLoc d)))) i hi
theorem out_fix3 (fb : Buf (Elt F) ((thrV d L).loc cc0_scratch0)) :
    ((oCh3 L).view.loc (thrV d L) ↦[(oCh3 L).view.set]{fullShare}
        (oCh3 L).view.writes (Elt F) (m (oLoc d)) [⟨Rect.whole S32x1024,
          ReadAs.same.apply (View.read (Elt F) (b0W).view (View.write (Elt F) (b0W).view fb
            (ReadAs.same.apply (View.read (Elt F) (tCh3 L).view (m (tLoc d)))) Finset.univ))⟩] : sProp 𝕄)
      = oLoc d ↦[oSet (L 0).val (L 1).val (3 : Fin 4).val]{fullShare} rowsOf m d := by
  rw [pointsTo_congr (out_key3 m d L fb), show (oCh3 L).view.set = oSet (L 0).val (L 1).val (3 : Fin 4).val from set_oCh L 3]

omit [FloatOps F] in
theorem waits_ok {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

/-- The task on vector subcore `(L 0, L 1)` of device `d`: three loads started; per chunk the load awaited and the
    write-out started, the first write-out awaited before the fourth load reuses its buffer; the last three write-outs
    awaited. Each semaphore carries one copy at a time, each buffer is touched only between its copy's wait and the next
    issue, so every copy lands what its source held at the launch: the row block's four chunks end at the table's rows. -/
theorem tile_body (hF : (K (F := F)).Facts) (O : CellTallies nD τ sig (HIx 1)) (W : Waits sig (HIx 1)) (hO : ∀ g, O g none = 0) :
    iprop(levAts (K (F := F)).L (K (F := F)).lev ∗ emp ∗ goRes m d (L 0).val (L 1).val
        ∗ scopedBufs (thrV d L) ∗ scopedSems0 (thrV d L) ∗ owes (thrV d L) O W)
      ⊢ wp frame (wpE (defs₀ (F := F)) 𝒱₀ (thrV d L) none) Set.univ
          (cc0_body L tW (Memref.isWhole_whole _) oW (Memref.isWhole_whole _) b0W (Memref.isWhole_whole _) b1W (Memref.isWhole_whole _) b2W (Memref.isWhole_whole _)
            cc0_scratch3 cc0_scratch4 cc0_scratch5 cc0_scratch6 cc0_scratch7 cc0_scratch8)
          fun _ => iprop(tdRes m d (L 0).val (L 1).val ∗ scopedBufs (thrV d L) ∗ scopedSems0 (thrV d L)
            ∗ ∃ W', ⌜∀ p ∈ W', p ∈ W ∨ p.2 = none⌝ ∗ owes (thrV d L) O W') := by
  simp only [cc0_body_eq_skeleton]; unfold cc0_body_skel
  simp only [k0_part2_eq_skeleton]; unfold k0_part2_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold goRes tdRes; rw [fin4, fin4]
  iintro ⟨#Hlv, -, ⟨⟨Ht0, Ho0⟩, ⟨Ht1, Ho1⟩, ⟨Ht2, Ho2⟩, ⟨Ht3, Ho3⟩⟩, ⟨⟨%f0, Hb0⟩, ⟨%f1, Hb1⟩, ⟨%f2, Hb2⟩, Hbufs⟩, ⟨⟨Hs3, Hs4, Hs5, Hs6, Hs7, Hs8⟩, Hsems⟩, HO⟩
  ihave Hmw := ((K (F := F)).mayWaits_none (thr := thrV d L) hO) $$ Hlv
  ihave Ht0 := (Entails.of_eq (pts_tCh0 (F := F) d L _).symm) $$ Ht0
  ihave Ht1 := (Entails.of_eq (pts_tCh1 (F := F) d L _).symm) $$ Ht1
  ihave Ht2 := (Entails.of_eq (pts_tCh2 (F := F) d L _).symm) $$ Ht2
  ihave Ht3 := (Entails.of_eq (pts_tCh3 (F := F) d L _).symm) $$ Ht3
  ihave Ho0 := (Entails.of_eq (pts_oCh0 (F := F) d L _).symm) $$ Ho0
  ihave Ho1 := (Entails.of_eq (pts_oCh1 (F := F) d L _).symm) $$ Ho1
  ihave Ho2 := (Entails.of_eq (pts_oCh2 (F := F) d L _).symm) $$ Ho2
  ihave Ho3 := (Entails.of_eq (pts_oCh3 (F := F) d L _).symm) $$ Ho3
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  sl_exec
  sl_unfold_run_names
  sl_step
  ihave Ht0 := (Entails.of_eq (pts_tCh0 (F := F) d L _)) $$ Ht0
  ihave Ht1 := (Entails.of_eq (pts_tCh1 (F := F) d L _)) $$ Ht1
  ihave Ht2 := (Entails.of_eq (pts_tCh2 (F := F) d L _)) $$ Ht2
  ihave Ht3 := (Entails.of_eq (pts_tCh3 (F := F) d L _)) $$ Ht3
  ihave Ho0 := (Entails.of_eq (out_fix0 m d L _)) $$ Ho0
  ihave Ho1 := (Entails.of_eq (out_fix1 m d L _)) $$ Ho1
  ihave Ho2 := (Entails.of_eq (out_fix2 m d L _)) $$ Ho2
  ihave Ho3 := (Entails.of_eq (out_fix3 m d L _)) $$ Ho3
  isplitl [Ht0 Ht1 Ht2 Ht3 Ho0 Ho1 Ho2 Ho3]
  · isplitl [Ht0 Ho0]
    · isplitl [Ht0]; · iexact Ht0
      iexact Ho0
    isplitl [Ht1 Ho1]
    · isplitl [Ht1]; · iexact Ht1
      iexact Ho1
    isplitl [Ht2 Ho2]
    · isplitl [Ht2]; · iexact Ht2
      iexact Ho2
    isplitl [Ht3]; · iexact Ht3
    iexact Ho3
  isplitl [Hb0 Hb1 Hb2 Hbufs]
  · isplitl [Hb0]
    · iexists _; iapply (Entails.of_eq (pts_b0 (F := F) d L _)); iexact Hb0
    isplitl [Hb1]
    · iexists _; iapply (Entails.of_eq (pts_b1 (F := F) d L _)); iexact Hb1
    isplitl [Hb2]
    · iexists _; iapply (Entails.of_eq (pts_b2 (F := F) d L _)); iexact Hb2
    iexact Hbufs
  isplitl [Hs3 Hs4 Hs5 Hs6 Hs7 Hs8 Hsems]
  · isplitr [Hsems]
    · isplitl [Hs3]; · iexact Hs3
      isplitl [Hs4]; · iexact Hs4
      isplitl [Hs5]; · iexact Hs5
      isplitl [Hs6]; · iexact Hs6
      isplitl [Hs7]; · iexact Hs7
      iexact Hs8
    iexact Hsems
  iexists _; isplitr
  rotate_left
  · iexact HO
  · ipureintro
    exact waits_ok (waits_ok (waits_ok (waits_ok (waits_ok (waits_ok (waits_ok (waits_ok (fun p hp => .inl hp) _) _) _) _) _) _) _) _

end Tile

end Cert.Kernel.Frame

end
-- ==== Proof.KernelLaunch.lean ====
import proofs.«217626_g16260746182798_cont_week2b_915_14_alg».proof.Proof.KernelSetup

noncomputable section

namespace Cert.Kernel.Frame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S4096x1024 EltTy.f32)
local notation "b0W" => (Memref.whole Cert.Kernel.cc0_scratch0 : Memref Cert.Kernel.sig Kind.scVector Space.vmem Cert.Kernel.S32x1024 EltTy.f32)
local notation "b1W" => (Memref.whole Cert.Kernel.cc0_scratch1 : Memref Cert.Kernel.sig Kind.scVector Space.vmem Cert.Kernel.S32x1024 EltTy.f32)
local notation "b2W" => (Memref.whole Cert.Kernel.cc0_scratch2 : Memref Cert.Kernel.sig Kind.scVector Space.vmem Cert.Kernel.S32x1024 EltTy.f32)

variable [FloatOps F]

/-! ## The chunks partition the row block, and sit apart in the table -/

abbrev I3 : Type := Fin 2 × Fin 16 × Fin 4
def tK (x : I3) : Finset S8192x1024.Idx := tSet x.1.val x.2.1.val x.2.2.val
def oK (x : I3) : Finset S4096x1024.Idx := oSet x.1.val x.2.1.val x.2.2.val

omit [FloatOps F] in
/-- A chunk's number `8 s + 4 c + r` determines `(c, s, r)`. -/
theorem key_inj (x y : I3) (h : 8 * x.2.1.val + 4 * x.1.val + x.2.2.val = 8 * y.2.1.val + 4 * y.1.val + y.2.2.val) : x = y := by
  obtain ⟨c, s, r⟩ := x; obtain ⟨c', s', r'⟩ := y
  have hc := c.isLt; have hc' := c'.isLt; have hr := r.isLt; have hr' := r'.isLt
  simp only at h
  refine Prod.ext (Fin.ext ?_) (Prod.ext (Fin.ext ?_) (Fin.ext ?_)) <;> simp only <;> omega

omit [FloatOps F] in
theorem tK_disjoint : ∀ x ∈ (Finset.univ : Finset I3), ∀ y ∈ (Finset.univ : Finset I3), x ≠ y → Disjoint (tK x) (tK y) :=
  fun x _ y _ hne => Finset.disjoint_left.mpr fun i h1 h2 => hne (key_inj x y ((mem_tSet.mp h1).symm.trans (mem_tSet.mp h2)))
omit [FloatOps F] in
theorem oK_disjoint : ∀ x ∈ (Finset.univ : Finset I3), ∀ y ∈ (Finset.univ : Finset I3), x ≠ y → Disjoint (oK x) (oK y) :=
  fun x _ y _ hne => Finset.disjoint_left.mpr fun i h1 h2 => hne (key_inj x y ((mem_oSet.mp h1).symm.trans (mem_oSet.mp h2)))

omit [FloatOps F] in
/-- Every row below 4096 lies in one of the 128 chunks: row `ρ` in chunk `ρ / 32`. -/
theorem oK_cover : (Finset.univ : Finset I3).biUnion oK = Finset.univ := by
  ext i
  simp only [Finset.mem_biUnion, Finset.mem_univ, true_and, iff_true]
  have hi : (i 0).val < 4096 := (i 0).isLt
  refine ⟨(⟨(i 0).val / 32 / 4 % 2, by omega⟩, ⟨(i 0).val / 32 / 8, by omega⟩, ⟨(i 0).val / 32 % 4, by omega⟩), mem_oSet.mpr ?_⟩
  show (i 0).val / 32 = 8 * ((i 0).val / 32 / 8) + 4 * ((i 0).val / 32 / 4 % 2) + (i 0).val / 32 % 4
  omega

omit [FloatOps F] in
theorem oPts_chunks (d : Dev nD) (f : Buf (Elt F) (oLoc d)) :
    (oLoc d ↦{fullShare} f : sProp 𝕄) = bigSep Finset.univ fun x : I3 => oLoc d ↦[oK x]{fullShare} f := by
  rw [← pointsTo_biUnion Finset.univ (ℓ := oLoc d) oK oK_disjoint, oK_cover]; try rfl

/-- The table's rows outside the 128 chunks (rows 4096 and beyond): no task touches them. -/
def tRest : Finset S8192x1024.Idx := Finset.univ \ (Finset.univ : Finset I3).biUnion tK

omit [FloatOps F] in
theorem tPts_chunks (d : Dev nD) (f : Buf (Elt F) (tLoc d)) :
    (tLoc d ↦{fullShare} f : sProp 𝕄) ⊣⊢ iprop((bigSep Finset.univ fun x : I3 => tLoc d ↦[tK x]{fullShare} f) ∗ tLoc d ↦[tRest]{fullShare} f) := by
  rw [← pointsTo_biUnion Finset.univ (ℓ := tLoc d) tK tK_disjoint]
  have h : ((tLoc d ↦[(Finset.univ : Finset I3).biUnion tK ∪ tRest]{fullShare} f : sProp 𝕄)
      ⊣⊢ iprop((tLoc d ↦[(Finset.univ : Finset I3).biUnion tK]{fullShare} f) ∗ tLoc d ↦[tRest]{fullShare} f)) :=
    pointsTo_union Finset.disjoint_sdiff
  rw [show (Finset.univ : Finset I3).biUnion tK ∪ tRest = Finset.univ from Finset.union_sdiff_of_subset (Finset.subset_univ _)] at h
  exact h

omit [FloatOps F] in
/-- The pieces by chunk are the pieces by SparseCore, vector subcore and copy. -/
theorem nest3 (Φ : I3 → sProp 𝕄) :
    bigSep Finset.univ Φ = bigSep Finset.univ fun c : Fin 2 => bigSep Finset.univ fun s : Fin 16 => bigSep Finset.univ fun r : Fin 4 => Φ (c, s, r) := by
  rw [bigSep_univ_prod]
  exact bigSep_congr fun c _ => bigSep_univ_prod _

/-- What the call takes for both SparseCores is the table's 128 chunks and the row block's; what it gives back the same,
    the row block's chunks at `f`. -/
theorem calls_eq (d : Dev nD) (f : Buf (Elt F) (oLoc d)) :
    (bigSep Finset.univ fun c : Fin 2 => bigSep Finset.univ fun s : Fin 16 => bigSep (Finset.univ : Finset (Fin 4)) fun r =>
        iprop(tPiece m d c.val s.val r.val ∗ oPiece d c.val s.val r.val f))
      = iprop((bigSep Finset.univ fun x : I3 => tLoc d ↦[tK x]{fullShare} m (tLoc d)) ∗ bigSep Finset.univ fun x : I3 => oLoc d ↦[oK x]{fullShare} f) := by
  rw [← bigSep_sep', nest3]
  rfl

theorem st0_eq (d : Dev nD) :
    (bigSep Finset.univ fun c : Fin ((K (F := F)).nCore 0) => (P m).st 0 d c)
      = iprop((bigSep Finset.univ fun x : I3 => tLoc d ↦[tK x]{fullShare} m (tLoc d)) ∗ bigSep Finset.univ fun x : I3 => oLoc d ↦[oK x]{fullShare} m (oLoc d)) :=
  calls_eq m d (m (oLoc d))
theorem dn0_eq (d : Dev nD) :
    (bigSep Finset.univ fun c : Fin ((K (F := F)).nCore 0) => (P m).dn 0 d c)
      = iprop((bigSep Finset.univ fun x : I3 => tLoc d ↦[tK x]{fullShare} m (tLoc d)) ∗ bigSep Finset.univ fun x : I3 => oLoc d ↦[oK x]{fullShare} rowsOf m d) :=
  calls_eq m d (rowsOf m d)

/-! ## A SparseCore's operands are its tasks' -/

theorem vecSplit : (K (F := F)).VecSplit' (P m) 0 := by
  intro d c
  show (bigSep Finset.univ fun i : Fin ((K (F := F)).nSub 0) => goRes m d c.val i.val) ⊢ |={Set.univ}=> iprop(
      (bigSep Finset.univ fun i : Fin ((K (F := F)).nSub 0) => goRes m d c.val i.val)
      ∗ ((bigSep Finset.univ fun i : Fin ((K (F := F)).nSub 0) => tdRes m d c.val i.val)
          -∗ bigSep Finset.univ fun i : Fin ((K (F := F)).nSub 0) => tdRes m d c.val i.val))
  iintro H; imodintro
  isplitl [H]; · iexact H
  iintro H; iexact H

/-! ## The launch element: the handshakes' rounds; the counters are found by the transfers themselves -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev r' : DevRef τ sig := Proc.devRef .tc (main_v1 : Ref sig .tc)

/-- The one host operation after the call: the row block under a new leading axis. -/
abbrev opB : HloOp τ sig (Elt F) :=
  StableHlo.unary main_v0 main_v1 (broadcastInDim S1x4096x1024 ![1, 2] bcast_S4096x1024_S1x4096x1024_1_2 : (⟨S4096x1024, .f32⟩ : BufTy).Contents (Elt F) → (⟨S1x4096x1024, .f32⟩ : BufTy).Contents (Elt F))

abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The contents after the call: the row block at the table's rows. -/
def V1 (d : Dev nD) : Valuation τ sig (Elt F) := Function.update (fun b => m (d, b)) o' (rowsOf m d)

theorem V1_o (d : Dev nD) : V1 m d o' = rowsOf m d := Function.update_self _ _ _
theorem V1_r (d : Dev nD) : V1 m d r' = m (rLoc d) := Function.update_of_ne (show r' ≠ o' by decide) _ _

/-- The result: the table's first 4096 rows under a leading unit axis. -/
abbrev resOf (d : Dev nD) : Buf (Elt F) (rLoc d) := Cert.Spec.result (m (tLoc d))

theorem result_r (d : Dev nD) : (opB (F := F)).result (V1 m d) r' = resOf m d := by
  refine (StableHlo.unary_result main_v0 main_v1 _ _ _ (V1 m d)).trans ?_
  rw [show V1 m d o' = rowsOf m d from V1_o m d]
  exact Cert.Spec.broadcast_rows (m (tLoc d)) _
theorem result_o (d : Dev nD) : (opB (F := F)).result (V1 m d) o' = rowsOf m d :=
  ((opB (F := F)).result_of_not_mem (V1 m d) (b := o') (show o' ∉ ({r'} : Finset (DevRef τ sig)) by decide)).trans (V1_o m d)

theorem hB : (opB (F := F)).bufs ⊆ S2 := show ({o', r'} : Finset (DevRef τ sig)) ⊆ S2 from Finset.Subset.refl _

/-- What @main leaves the claim: the positions and the table at their launch contents, the result at the table's rows. -/
abbrev FIN (d : Dev nD) : sProp 𝕄 := iprop((xLoc d ↦{fullShare} m (xLoc d)) ∗ (tLoc d ↦{fullShare} m (tLoc d)) ∗ rLoc d ↦{fullShare} resOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho, Hr⟩, -, -⟩, -⟩
  ihave Ht' := (tPts_chunks (F := F) d _).1 $$ Ht
  icases Ht' with ⟨Htc, Htr⟩
  ihave Hoc := (Entails.of_eq (oPts_chunks (F := F) d _)) $$ Ho
  -- the call: every chunk to its vector subcore and back, the row block's at the table's rows
  iapply ((K (F := F)).wp_run (D (F := F)) 𝒱 (EH := EH) (P := P m) κ d 0) $$ [Hst Htc Hoc Hb Hr Hx Htr]
  isplitr; · iexact Hctx
  isplitl [Hst]; · iexact Hst
  isplitl [Htc Hoc]
  · rw [st0_eq]
    isplitl [Htc]; · iexact Htc
    iexact Hoc
  iintro ⟨Hst, Hdn⟩
  ihave Hdn' := (Entails.of_eq (dn0_eq m d)) $$ Hdn
  icases Hdn' with ⟨Htc, Hoc⟩
  ihave Ho := (Entails.of_eq (oPts_chunks (F := F) d _).symm) $$ Hoc
  ihave Ht := (tPts_chunks (F := F) d _).2 $$ [Htc Htr]
  · isplitl [Htc]; · iexact Htc
    iexact Htr
  -- the broadcast, over the row block and the result
  iapply (wp_hlo_within 𝒱 (SparseCore.T d) none Set.univ (op := opB) (S := S2) hB (V := V1 m d)) $$ [Hb Ho Hr]
  · isplitl [Hb]; · iexact Hb
    rw [held_S2, V1_o, V1_r]
    isplitl [Ho]; · iexact Ho
    iexact Hr
  iintro ⟨Hb, Hheld⟩
  ihave Hh := (Entails.of_eq (held_S2 (F := F) d _)) $$ Hheld
  icases Hh with ⟨-, Hr⟩
  rw [wp_ret]; imodintro; imodintro
  isplitl [Hst]; · iexact Hst
  isplitl [Hx]; · iexact Hx
  isplitl [Ht]; · iexact Ht
  rw [result_r]
  iexact Hr

def fq (d : Dev nD) (s' : Phys nD τ sig (Elt F)) : Prop :=
  s'.mem.mem (rLoc d) = resOf m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Cert.Kernel.Frame

end
-- ==== Proof.KernelRun.lean ====
import proofs.«217626_g16260746182798_cont_week2b_915_14_alg».proof.Proof.KernelBody
import proofs.«217626_g16260746182798_cont_week2b_915_14_alg».proof.Proof.KernelLaunch

noncomputable section

namespace Cert.Kernel.Frame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tW" => (Memref.whole Cert.Kernel.main_arg1_scv : Memref Cert.Kernel.sig Kind.scVector Space.hbm Cert.Kernel.S8192x1024 EltTy.f32)
local notation "oW" => (Memref.whole Cert.Kernel.main_v0_scv : Memref Cert.Kernel.sig Kind.scVector Space.hbm Cert.Kernel.S4096x1024 EltTy.f32)
local notation "b0W" => (Memref.whole Cert.Kernel.cc0_scratch0 : Memref Cert.Kernel.sig Kind.scVector Space.vmem Cert.Kernel.S32x1024 EltTy.f32)
local notation "b1W" => (Memref.whole Cert.Kernel.cc0_scratch1 : Memref Cert.Kernel.sig Kind.scVector Space.vmem Cert.Kernel.S32x1024 EltTy.f32)
local notation "b2W" => (Memref.whole Cert.Kernel.cc0_scratch2 : Memref Cert.Kernel.sig Kind.scVector Space.vmem Cert.Kernel.S32x1024 EltTy.f32)

variable [FloatOps F]

/-! ## The launch theorem's obligation for the one vector-subcore kernel -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          tW (Memref.isWhole_whole _) oW (Memref.isWhole_whole _) b0W (Memref.isWhole_whole _) b1W (Memref.isWhole_whole _) b2W (Memref.isWhole_whole _)
          cc0_scratch3 cc0_scratch4 cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-! ## The program's run -/

/-- Where every execution ends: the result at the table's first 4096 rows under a leading unit axis, the positions and
    the table as launched. -/
def QC : PUnit × MemSt nD τ sig (Elt F) → Prop := fun r =>
  ∀ c : Dev nD, r.2.mem (rLoc c) = resOf m c ∧ r.2.mem (xLoc c) = m (xLoc c) ∧ r.2.mem (tLoc c) = m (tLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Kernel.Frame

end
-- ==== Proof.KernelIdealSetup.lean ====
import proofs.«217626_g16260746182798_cont_week2b_915_14_alg».proof.KernelIdeal
import proofs.«217626_g16260746182798_cont_week2b_915_14_alg».proof.Proof.Gen.KernelIdeal
import proofs.«217626_g16260746182798_cont_week2b_915_14_alg».proof.Proof.Gen.KernelIdeal.Skeleton
import proofs.«217626_g16260746182798_cont_week2b_915_14_alg».proof.Proof.Spec
import Idealize.ShloMosaic.Lib.SparseCore.Launch
import Idealize.ShloMosaic.Lib.StableHlo.Run
import Idealize.ShloMosaic.Lib.Pipeline.Kit
import Idealize.ShloMosaic.Lib.Tactic

noncomputable section

namespace Cert.KernelIdeal.Frame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

local notation "tW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S4096x1024 EltTy.f32)
local notation "b0W" => (Memref.whole Cert.KernelIdeal.cc0_scratch0 : Memref Cert.KernelIdeal.sig Kind.scVector Space.vmem Cert.KernelIdeal.S32x1024 EltTy.f32)
local notation "b1W" => (Memref.whole Cert.KernelIdeal.cc0_scratch1 : Memref Cert.KernelIdeal.sig Kind.scVector Space.vmem Cert.KernelIdeal.S32x1024 EltTy.f32)
local notation "b2W" => (Memref.whole Cert.KernelIdeal.cc0_scratch2 : Memref Cert.KernelIdeal.sig Kind.scVector Space.vmem Cert.KernelIdeal.S32x1024 EltTy.f32)

/-- The position input, the table, the row block the kernel writes, and the result, as locations of device `d`. -/
abbrev xLoc (d : Dev nD) : Loc nD τ sig := (SparseCore.T d).loc main_arg0
abbrev tLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

/-- Chunk number `8 s + 4 c + r` of 32 rows: the rows vector subcore `s` of SparseCore `c` moves in its `r`-th copy,
    rows `256 s + 128 c + 32 r` … `+ 31`, in the table and in the row block. -/
def tSet (cn sn rn : ℕ) : Finset S8192x1024.Idx := Finset.univ.filter fun i => (i 0).val / 32 = 8 * sn + 4 * cn + rn
def oSet (cn sn rn : ℕ) : Finset S4096x1024.Idx := Finset.univ.filter fun i => (i 0).val / 32 = 8 * sn + 4 * cn + rn

theorem mem_tSet {cn sn rn : ℕ} {i : S8192x1024.Idx} : i ∈ tSet cn sn rn ↔ (i 0).val / 32 = 8 * sn + 4 * cn + rn := by
  unfold tSet; rw [Finset.mem_filter]; exact ⟨fun h => h.2, fun h => ⟨Finset.mem_univ _, h⟩⟩
theorem mem_oSet {cn sn rn : ℕ} {i : S4096x1024.Idx} : i ∈ oSet cn sn rn ↔ (i 0).val / 32 = 8 * sn + 4 * cn + rn := by
  unfold oSet; rw [Finset.mem_filter]; exact ⟨fun h => h.2, fun h => ⟨Finset.mem_univ _, h⟩⟩

/-- The rows a copy's table slice names are that chunk. -/
theorem set_tRect (L : grid0.Coords) (r : Fin 4) :
    (Rect.unit (s := S8192x1024) (k0_off1 L (BitVec.ofNat 32 (32 * r.val))) S32x1024.size (k0_off1_inb L r)).set = tSet (L 0).val (L 1).val r.val := by
  ext i
  rw [Rect.mem_set_unit, mem_tSet, k0_off1_eq L r]
  have h1 : (i 1).val < 1024 := (i 1).isLt
  constructor
  · intro h
    have h0 := h 0
    have e0 : (![256 * (L 1).val + 128 * (L 0).val + 32 * r.val, 0] : Fin 2 → ℕ) 0 = 256 * (L 1).val + 128 * (L 0).val + 32 * r.val := rfl
    have s0 : S32x1024.size 0 = 32 := rfl
    rw [e0, s0] at h0
    omega
  · intro h a
    match a with
    | ⟨0, _⟩ =>
      show 256 * (L 1).val + 128 * (L 0).val + 32 * r.val ≤ (i 0).val ∧ (i 0).val < 256 * (L 1).val + 128 * (L 0).val + 32 * r.val + 32
      omega
    | ⟨1, _⟩ =>
      show 0 ≤ (i 1).val ∧ (i 1).val < 0 + 1024
      omega
theorem set_oRect (L : grid0.Coords) (r : Fin 4) :
    (Rect.unit (s := S4096x1024) (k0_off2 L (BitVec.ofNat 32 (32 * r.val))) S32x1024.size (k0_off2_inb L r)).set = oSet (L 0).val (L 1).val r.val := by
  ext i
  rw [Rect.mem_set_unit, mem_oSet, k0_off2_eq L r]
  have h1 : (i 1).val < 1024 := (i 1).isLt
  constructor
  · intro h
    have h0 := h 0
    have e0 : (![256 * (L 1).val + 128 * (L 0).val + 32 * r.val, 0] : Fin 2 → ℕ) 0 = 256 * (L 1).val + 128 * (L 0).val + 32 * r.val := rfl
    have s0 : S32x1024.size 0 = 32 := rfl
    rw [e0, s0] at h0
    omega
  · intro h a
    match a with
    | ⟨0, _⟩ =>
      show 256 * (L 1).val + 128 * (L 0).val + 32 * r.val ≤ (i 0).val ∧ (i 0).val < 256 * (L 1).val + 128 * (L 0).val + 32 * r.val + 32
      omega
    | ⟨1, _⟩ =>
      show 0 ≤ (i 1).val ∧ (i 1).val < 0 + 1024
      omega

/-! ## What the handshakes carry -/

variable [FloatOps F]

/-- The table's first 4096 rows, as contents of the row block. -/
abbrev rowsOf (d : Dev nD) : Buf (Elt F) (oLoc d) := Cert.Spec.rows (m (tLoc d))

abbrev tPiece (d : Dev nD) (cn sn rn : ℕ) : sProp 𝕄 := tLoc d ↦[tSet cn sn rn]{fullShare} m (tLoc d)
abbrev oPiece (d : Dev nD) (cn sn rn : ℕ) (f : Buf (Elt F) (oLoc d)) : sProp 𝕄 := oLoc d ↦[oSet cn sn rn]{fullShare} f

/-- A task's operands: its four chunks of the table and of the row block; its results: the same chunks, the row
    block's now at the table's rows. -/
def goRes (d : Dev nD) (cn sn : ℕ) : sProp 𝕄 :=
  bigSep (Finset.univ : Finset (Fin 4)) fun r => iprop(tPiece m d cn sn r.val ∗ oPiece d cn sn r.val (m (oLoc d)))
def tdRes (d : Dev nD) (cn sn : ℕ) : sProp 𝕄 :=
  bigSep (Finset.univ : Finset (Fin 4)) fun r => iprop(tPiece m d cn sn r.val ∗ oPiece d cn sn r.val (rowsOf m d))

omit [FloatOps F] in
theorem fin4 (Φ : Fin 4 → sProp 𝕄) : bigSep (Finset.univ : Finset (Fin 4)) Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

instance goRes_storable (d : Dev nD) (cn sn : ℕ) : BI.Storable (upEmb : UEmb _ 𝕄) (goRes m d cn sn) := by
  unfold goRes; rw [fin4]; infer_instance
instance tdRes_storable (d : Dev nD) (cn sn : ℕ) : BI.Storable (upEmb : UEmb _ 𝕄) (tdRes m d cn sn) := by
  unfold tdRes; rw [fin4]; infer_instance

def P : (K (F := F)).Pay (nD := nD) (Val := Elt F) (Name := ℕ) (U := UU) where
  st := fun q d c => bigSep Finset.univ fun i : Fin ((K (F := F)).nSub q) => goRes m d c.val i.val
  dn := fun q d c => bigSep Finset.univ fun i : Fin ((K (F := F)).nSub q) => tdRes m d c.val i.val
  go := fun _ d c i => goRes m d c.val i.val
  td := fun _ d c i => tdRes m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.KernelIdeal.Frame

end
-- ==== Proof.KernelIdealBody.lean ====
import proofs.«217626_g16260746182798_cont_week2b_915_14_alg».proof.Proof.KernelIdealSetup

noncomputable section

namespace Cert.KernelIdeal.Frame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S4096x1024 EltTy.f32)
local notation "b0W" => (Memref.whole Cert.KernelIdeal.cc0_scratch0 : Memref Cert.KernelIdeal.sig Kind.scVector Space.vmem Cert.KernelIdeal.S32x1024 EltTy.f32)
local notation "b1W" => (Memref.whole Cert.KernelIdeal.cc0_scratch1 : Memref Cert.KernelIdeal.sig Kind.scVector Space.vmem Cert.KernelIdeal.S32x1024 EltTy.f32)
local notation "b2W" => (Memref.whole Cert.KernelIdeal.cc0_scratch2 : Memref Cert.KernelIdeal.sig Kind.scVector Space.vmem Cert.KernelIdeal.S32x1024 EltTy.f32)

variable [FloatOps F]

/-! ## One vector subcore's task -/

section Tile

variable (d : Dev nD) (L : grid0.Coords)

abbrev cV (L : grid0.Coords) : Fin τ.nSC := (L 0).castLE hcore0
abbrev jV (L : grid0.Coords) : Fin τ.nSub := (L 1).castLE hsub0
abbrev thrV (d : Dev nD) (L : grid0.Coords) : Thread nD τ := V d (cV L) (jV L)

/-- The table's and the row block's slices a task's four copies name, spelt as the body slices them. -/
abbrev tCh0 (L : grid0.Coords) : Memref sig .scVector .hbm S32x1024 .f32 :=
  (tW).slice (Rect.unit (s := S8192x1024) (k0_off1 L 0#32) S32x1024.size (k0_off1_inb L 0)) (fun _ => rfl)
abbrev oCh0 (L : grid0.Coords) : Memref sig .scVector .hbm S32x1024 .f32 :=
  (oW).slice (Rect.unit (s := S4096x1024) (k0_off2 L 0#32) S32x1024.size (k0_off2_inb L 0)) (fun _ => rfl)
abbrev tCh1 (L : grid0.Coords) : Memref sig .scVector .hbm S32x1024 .f32 :=
  (tW).slice (Rect.unit (s := S8192x1024) (k0_off1 L 32#32) S32x1024.size (k0_off1_inb L 1)) (fun _ => rfl)
abbrev oCh1 (L : grid0.Coords) : Memref sig .scVector .hbm S32x1024 .f32 :=
  (oW).slice (Rect.unit (s := S4096x1024) (k0_off2 L 32#32) S32x1024.size (k0_off2_inb L 1)) (fun _ => rfl)
abbrev tCh2 (L : grid0.Coords) : Memref sig .scVector .hbm S32x1024 .f32 :=
  (tW).slice (Rect.unit (s := S8192x1024) (k0_off1 L 64#32) S32x1024.size (k0_off1_inb L 2)) (fun _ => rfl)
abbrev oCh2 (L : grid0.Coords) : Memref sig .scVector .hbm S32x1024 .f32 :=
  (oW).slice (Rect.unit (s := S4096x1024) (k0_off2 L 64#32) S32x1024.size (k0_off2_inb L 2)) (fun _ => rfl)
abbrev tCh3 (L : grid0.Coords) : Memref sig .scVector .hbm S32x1024 .f32 :=
  (tW).slice (Rect.unit (s := S8192x1024) (k0_off1 L 96#32) S32x1024.size (k0_off1_inb L 3)) (fun _ => rfl)
abbrev oCh3 (L : grid0.Coords) : Memref sig .scVector .hbm S32x1024 .f32 :=
  (oW).slice (Rect.unit (s := S4096x1024) (k0_off2 L 96#32) S32x1024.size (k0_off2_inb L 3)) (fun _ => rfl)

omit [FloatOps F] in
theorem set_tCh (r : Fin 4) :
    (((tW).slice (Rect.unit (s := S8192x1024) (k0_off1 L (BitVec.ofNat 32 (32 * r.val))) S32x1024.size (k0_off1_inb L r)) (fun _ => rfl)).view.set)
      = tSet (L 0).val (L 1).val r.val := by
  show ((View.whole (main_arg1_scv : Ref sig .scVector)).slice _).set = _
  rw [View.set_slice_whole]; exact set_tRect L r
omit [FloatOps F] in
theorem set_oCh (r : Fin 4) :
    (((oW).slice (Rect.unit (s := S4096x1024) (k0_off2 L (BitVec.ofNat 32 (32 * r.val))) S32x1024.size (k0_off2_inb L r)) (fun _ => rfl)).view.set)
      = oSet (L 0).val (L 1).val r.val := by
  show ((View.whole (main_v0_scv : Ref sig .scVector)).slice _).set = _
  rw [View.set_slice_whole]; exact set_oRect L r

omit [FloatOps F] in
theorem pts_tCh0 (f : Buf (Elt F) (tLoc d)) :
    ((tCh0 L).view.loc (thrV d L) ↦[(tCh0 L).view.set]{fullShare} f : sProp 𝕄) = tLoc d ↦[tSet (L 0).val (L 1).val (0 : Fin 4).val]{fullShare} f := by
  rw [show (tCh0 L).view.set = tSet (L 0).val (L 1).val (0 : Fin 4).val from set_tCh L 0]
omit [FloatOps F] in
theorem pts_oCh0 (f : Buf (Elt F) (oLoc d)) :
    ((oCh0 L).view.loc (thrV d L) ↦[(oCh0 L).view.set]{fullShare} f : sProp 𝕄) = oLoc d ↦[oSet (L 0).val (L 1).val (0 : Fin 4).val]{fullShare} f := by
  rw [show (oCh0 L).view.set = oSet (L 0).val (L 1).val (0 : Fin 4).val from set_oCh L 0]
omit [FloatOps F] in
theorem pts_tCh1 (f : Buf (Elt F) (tLoc d)) :
    ((tCh1 L).view.loc (thrV d L) ↦[(tCh1 L).view.set]{fullShare} f : sProp 𝕄) = tLoc d ↦[tSet (L 0).val (L 1).val (1 : Fin 4).val]{fullShare} f := by
  rw [show (tCh1 L).view.set = tSet (L 0).val (L 1).val (1 : Fin 4).val from set_tCh L 1]
omit [FloatOps F] in
theorem pts_oCh1 (f : Buf (Elt F) (oLoc d)) :
    ((oCh1 L).view.loc (thrV d L) ↦[(oCh1 L).view.set]{fullShare} f : sProp 𝕄) = oLoc d ↦[oSet (L 0).val (L 1).val (1 : Fin 4).val]{fullShare} f := by
  rw [show (oCh1 L).view.set = oSet (L 0).val (L 1).val (1 : Fin 4).val from set_oCh L 1]
omit [FloatOps F] in
theorem pts_tCh2 (f : Buf (Elt F) (tLoc d)) :
    ((tCh2 L).view.loc (thrV d L) ↦[(tCh2 L).view.set]{fullShare} f : sProp 𝕄) = tLoc d ↦[tSet (L 0).val (L 1).val (2 : Fin 4).val]{fullShare} f := by
  rw [show (tCh2 L).view.set = tSet (L 0).val (L 1).val (2 : Fin 4).val from set_tCh L 2]
omit [FloatOps F] in
theorem pts_oCh2 (f : Buf (Elt F) (oLoc d)) :
    ((oCh2 L).view.loc (thrV d L) ↦[(oCh2 L).view.set]{fullShare} f : sProp 𝕄) = oLoc d ↦[oSet (L 0).val (L 1).val (2 : Fin 4).val]{fullShare} f := by
  rw [show (oCh2 L).view.set = oSet (L 0).val (L 1).val (2 : Fin 4).val from set_oCh L 2]
omit [FloatOps F] in
theorem pts_tCh3 (f : Buf (Elt F) (tLoc d)) :
    ((tCh3 L).view.loc (thrV d L) ↦[(tCh3 L).view.set]{fullShare} f : sProp 𝕄) = tLoc d ↦[tSet (L 0).val (L 1).val (3 : Fin 4).val]{fullShare} f := by
  rw [show (tCh3 L).view.set = tSet (L 0).val (L 1).val (3 : Fin 4).val from set_tCh L 3]
omit [FloatOps F] in
theorem pts_oCh3 (f : Buf (Elt F) (oLoc d)) :
    ((oCh3 L).view.loc (thrV d L) ↦[(oCh3 L).view.set]{fullShare} f : sProp 𝕄) = oLoc d ↦[oSet (L 0).val (L 1).val (3 : Fin 4).val]{fullShare} f := by
  rw [show (oCh3 L).view.set = oSet (L 0).val (L 1).val (3 : Fin 4).val from set_oCh L 3]

omit [FloatOps F] in
theorem pts_b0 (f : Buf (Elt F) ((thrV d L).loc cc0_scratch0)) :
    ((b0W).view.loc (thrV d L) ↦{fullShare} f : sProp 𝕄) = (thrV d L).loc cc0_scratch0 ↦{fullShare} f := rfl
omit [FloatOps F] in
theorem pts_b1 (f : Buf (Elt F) ((thrV d L).loc cc0_scratch1)) :
    ((b1W).view.loc (thrV d L) ↦{fullShare} f : sProp 𝕄) = (thrV d L).loc cc0_scratch1 ↦{fullShare} f := rfl
omit [FloatOps F] in
theorem pts_b2 (f : Buf (Elt F) ((thrV d L).loc cc0_scratch2)) :
    ((b2W).view.loc (thrV d L) ↦{fullShare} f : sProp 𝕄) = (thrV d L).loc cc0_scratch2 ↦{fullShare} f := rfl

/-- The task's six DMA semaphores are all of a vector subcore's scoped cells of that kind. -/
abbrev dcell (d : Dev nD) (L : grid0.Coords) (k : DmaSem sig) : GSem nD τ sig := (thrV d L, .dma k)

omit [FloatOps F] in
theorem ownSems0_V :
    (ownSems0 (thrV d L) : sProp 𝕄)
      = iprop((semVal (dcell d L cc0_scratch3.sem) 0 ∗ semVal (dcell d L cc0_scratch4.sem) 0 ∗ semVal (dcell d L cc0_scratch5.sem) 0
          ∗ semVal (dcell d L cc0_scratch6.sem) 0 ∗ semVal (dcell d L cc0_scratch7.sem) 0 ∗ semVal (dcell d L cc0_scratch8.sem) 0)
          ∗ bigSep (ownCells (thrV d L) \ (Finset.univ.image fun k : DmaSem sig => dcell d L k)) fun g => semVal g 0) := by
  unfold SparseCore.Cfg.ownSems0
  rw [SparseCore.bigSep_sdiff_split' (t := Finset.univ.image fun k : DmaSem sig => dcell d L k) ?sub,
    SparseCore.bigSep_image_of_injOn (fun a _ b _ e => SemLoc.dma.inj (Prod.mk.inj e).2)]
  case sub =>
    intro g hg
    obtain ⟨k, -, rfl⟩ := Finset.mem_image.mp hg
    exact mem_ownCells.mpr ⟨rfl, (by decide : ∀ k : DmaSem sig, (SemLoc.dma k : SemLoc sig).isScoped .scVector = true) k⟩
  rw [show (Finset.univ : Finset (DmaSem sig)) = {cc0_scratch3.sem, cc0_scratch4.sem, cc0_scratch5.sem, cc0_scratch6.sem, cc0_scratch7.sem, cc0_scratch8.sem} by decide,
    SparseCore.bigSep_insert' (by decide), SparseCore.bigSep_insert' (by decide), SparseCore.bigSep_insert' (by decide),
    SparseCore.bigSep_insert' (by decide), SparseCore.bigSep_insert' (by decide), bigSep_singleton]

omit [FloatOps F] in
/-- The three chunk buffers are among the subcore's own: they are them, at some contents, and the rest. -/
theorem ownBufs_V :
    (ownBufs (thrV d L) : sProp 𝕄)
      = iprop((∃ f, (thrV d L).loc cc0_scratch0 ↦{fullShare} f) ∗ (∃ f, (thrV d L).loc cc0_scratch1 ↦{fullShare} f)
          ∗ (∃ f, (thrV d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## What a copied chunk holds -/

omit [FloatOps F] in
/-- A whole buffer written whole and read back whole gives back what was written. -/
theorem whole_rt {κ : Kind} (b : Ref sig κ) (fb Y : b.ty.Contents (Elt F)) :
    ReadAs.same.apply (View.read (Elt F) (Memref.whole b).view (View.write (Elt F) (Memref.whole b).view fb (ReadAs.same.apply Y) Finset.univ)) = Y := by
  simp only [ReadAs.apply_same, Memref.view_whole, View.write_whole_univ, View.read_whole]

/-- A chunk of the row block, once the table's chunk at the SAME row offset has been written through it, holds the
    table's rows at every element of the chunk: element `y` of either chunk sits at row `offset + y₀`, column `y₁`,
    and the two offsets are one expression of the subcore's coordinates and the copy's word `w`. -/
theorem out_val (w : BitVec 32) (hin1 : ∀ a, k0_off1 L w a + S32x1024.size a ≤ S8192x1024.size a)
    (hin2 : ∀ a, k0_off2 L w a + S32x1024.size a ≤ S4096x1024.size a) (g : Buf (Elt F) (oLoc d)) (X : S32x1024.Idx → Elt F .f32)
    (hX : X = View.read (Elt F) ((tW).slice (Rect.unit (s := S8192x1024) (k0_off1 L w) S32x1024.size hin1) (fun _ => rfl)).view (m (tLoc d)))
    (i : S4096x1024.Idx) (hi : i ∈ ((oW).slice (Rect.unit (s := S4096x1024) (k0_off2 L w) S32x1024.size hin2) (fun _ => rfl)).view.set) :
    View.writes ((oW).slice (Rect.unit (s := S4096x1024) (k0_off2 L w) S32x1024.size hin2) (fun _ => rfl)).view
      (Elt F) g [⟨Rect.whole S32x1024, X⟩] i = rowsOf m d i := by
  subst hX
  obtain ⟨y, -, rfl⟩ := Finset.mem_map.mp hi
  rw [View.writes_singleton]
  have e1 : ((((oW).slice (Rect.unit (s := S4096x1024) (k0_off2 L w) S32x1024.size hin2) (fun _ => rfl)).view.slice (Rect.whole S32x1024)).emb y
      = ((oW).slice (Rect.unit (s := S4096x1024) (k0_off2 L w) S32x1024.size hin2) (fun _ => rfl)).view.emb y) := by
    rw [View.emb_slice, Function.Embedding.trans_apply]
    exact congrArg _ (Rect.emb_whole_apply S32x1024 y)
  rw [← e1, View.write_emb_of_mem _ _ (Finset.mem_univ y), e1]
  refine (cast_eq _ _).trans ?_
  rw [View.read_apply]
  refine (cast_eq _ _).trans ?_
  unfold rowsOf Cert.Spec.rows
  refine congrArg (m (tLoc d)) ?_
  funext a
  apply Fin.ext
  match a with
  | ⟨0, _⟩ => rfl
  | ⟨1, _⟩ => rfl

theorem out_key0 (fb : Buf (Elt F) ((thrV d L).loc cc0_scratch0)) :
    ∀ i ∈ (oCh0 L).view.set, ((oCh0 L).view.writes (Elt F) (m (oLoc d)) [⟨Rect.whole S32x1024,
          ReadAs.same.apply (View.read (Elt F) (b0W).view (View.write (Elt F) (b0W).view fb
            (ReadAs.same.apply (View.read (Elt F) (tCh0 L).view (m (tLoc d)))) Finset.univ))⟩]) i = rowsOf m d i :=
  fun i hi => out_val m d L 0#32 (k0_off1_inb L 0) (k0_off2_inb L 0) (m (oLoc d)) _
    (whole_rt (F := F) (cc0_scratch0 : Ref sig .scVector) fb (View.read (Elt F) (tCh0 L).view (m (tLoc d)))) i hi
theorem out_fix0 (fb : Buf (Elt F) ((thrV d L).loc cc0_scratch0)) :
    ((oCh0 L).view.loc (thrV d L) ↦[(oCh0 L).view.set]{fullShare}
        (oCh0 L).view.writes (Elt F) (m (oLoc d)) [⟨Rect.whole S32x1024,
          ReadAs.same.apply (View.read (Elt F) (b0W).view (View.write (Elt F) (b0W).view fb
            (ReadAs.same.apply (View.read (Elt F) (tCh0 L).view (m (tLoc d)))) Finset.univ))⟩] : sProp 𝕄)
      = oLoc d ↦[oSet (L 0).val (L 1).val (0 : Fin 4).val]{fullShare} rowsOf m d := by
  rw [pointsTo_congr (out_key0 m d L fb), show (oCh0 L).view.set = oSet (L 0).val (L 1).val (0 : Fin 4).val from set_oCh L 0]
theorem out_key1 (fb : Buf (Elt F) ((thrV d L).loc cc0_scratch1)) :
    ∀ i ∈ (oCh1 L).view.set, ((oCh1 L).view.writes (Elt F) (m (oLoc d)) [⟨Rect.whole S32x1024,
          ReadAs.same.apply (View.read (Elt F) (b1W).view (View.write (Elt F) (b1W).view fb
            (ReadAs.same.apply (View.read (Elt F) (tCh1 L).view (m (tLoc d)))) Finset.univ))⟩]) i = rowsOf m d i :=
  fun i hi => out_val m d L 32#32 (k0_off1_inb L 1) (k0_off2_inb L 1) (m (oLoc d)) _
    (whole_rt (F := F) (cc0_scratch1 : Ref sig .scVector) fb (View.read (Elt F) (tCh1 L).view (m (tLoc d)))) i hi
theorem out_fix1 (fb : Buf (Elt F) ((thrV d L).loc cc0_scratch1)) :
    ((oCh1 L).view.loc (thrV d L) ↦[(oCh1 L).view.set]{fullShare}
        (oCh1 L).view.writes (Elt F) (m (oLoc d)) [⟨Rect.whole S32x1024,
          ReadAs.same.apply (View.read (Elt F) (b1W).view (View.write (Elt F) (b1W).view fb
            (ReadAs.same.apply (View.read (Elt F) (tCh1 L).view (m (tLoc d)))) Finset.univ))⟩] : sProp 𝕄)
      = oLoc d ↦[oSet (L 0).val (L 1).val (1 : Fin 4).val]{fullShare} rowsOf m d := by
  rw [pointsTo_congr (out_key1 m d L fb), show (oCh1 L).view.set = oSet (L 0).val (L 1).val (1 : Fin 4).val from set_oCh L 1]
theorem out_key2 (fb : Buf (Elt F) ((thrV d L).loc cc0_scratch2)) :
    ∀ i ∈ (oCh2 L).view.set, ((oCh2 L).view.writes (Elt F) (m (oLoc d)) [⟨Rect.whole S32x1024,
          ReadAs.same.apply (View.read (Elt F) (b2W).view (View.write (Elt F) (b2W).view fb
            (ReadAs.same.apply (View.read (Elt F) (tCh2 L).view (m (tLoc d)))) Finset.univ))⟩]) i = rowsOf m d i :=
  fun i hi => out_val m d L 64#32 (k0_off1_inb L 2) (k0_off2_inb L 2) (m (oLoc d)) _
    (whole_rt (F := F) (cc0_scratch2 : Ref sig .scVector) fb (View.read (Elt F) (tCh2 L).view (m (tLoc d)))) i hi
theorem out_fix2 (fb : Buf (Elt F) ((thrV d L).loc cc0_scratch2)) :
    ((oCh2 L).view.loc (thrV d L) ↦[(oCh2 L).view.set]{fullShare}
        (oCh2 L).view.writes (Elt F) (m (oLoc d)) [⟨Rect.whole S32x1024,
          ReadAs.same.apply (View.read (Elt F) (b2W).view (View.write (Elt F) (b2W).view fb
            (ReadAs.same.apply (View.read (Elt F) (tCh2 L).view (m (tLoc d)))) Finset.univ))⟩] : sProp 𝕄)
      = oLoc d ↦[oSet (L 0).val (L 1).val (2 : Fin 4).val]{fullShare} rowsOf m d := by
  rw [pointsTo_congr (out_key2 m d L fb), show (oCh2 L).view.set = oSet (L 0).val (L 1).val (2 : Fin 4).val from set_oCh L 2]
theorem out_key3 (fb : Buf (Elt F) ((thrV d L).loc cc0_scratch0)) :
    ∀ i ∈ (oCh3 L).view.set, ((oCh3 L).view.writes (Elt F) (m (oLoc d)) [⟨Rect.whole S32x1024,
          ReadAs.same.apply (View.read (Elt F) (b0W).view (View.write (Elt F) (b0W).view fb
            (ReadAs.same.apply (View.read (Elt F) (tCh3 L).view (m (tLoc d)))) Finset.univ))⟩]) i = rowsOf m d i :=
  fun i hi => out_val m d L 96#32 (k0_off1_inb L 3) (k0_off2_inb L 3) (m (oLoc d)) _
    (whole_rt (F := F) (cc0_scratch0 : Ref sig .scVector) fb (View.read (Elt F) (tCh3 L).view (m (tLoc d)))) i hi
theorem out_fix3 (fb : Buf (Elt F) ((thrV d L).loc cc0_scratch0)) :
    ((oCh3 L).view.loc (thrV d L) ↦[(oCh3 L).view.set]{fullShare}
        (oCh3 L).view.writes (Elt F) (m (oLoc d)) [⟨Rect.whole S32x1024,
          ReadAs.same.apply (View.read (Elt F) (b0W).view (View.write (Elt F) (b0W).view fb
            (ReadAs.same.apply (View.read (Elt F) (tCh3 L).view (m (tLoc d)))) Finset.univ))⟩] : sProp 𝕄)
      = oLoc d ↦[oSet (L 0).val (L 1).val (3 : Fin 4).val]{fullShare} rowsOf m d := by
  rw [pointsTo_congr (out_key3 m d L fb), show (oCh3 L).view.set = oSet (L 0).val (L 1).val (3 : Fin 4).val from set_oCh L 3]

omit [FloatOps F] in
theorem waits_ok {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

/-- The task on vector subcore `(L 0, L 1)` of device `d`: three loads started; per chunk the load awaited and the
    write-out started, the first write-out awaited before the fourth load reuses its buffer; the last three write-outs
    awaited. Each semaphore carries one copy at a time, each buffer is touched only between its copy's wait and the next
    issue, so every copy lands what its source held at the launch: the row block's four chunks end at the table's rows. -/
theorem tile_body (hF : (K (F := F)).Facts) (O : CellTallies nD τ sig (HIx 1)) (W : Waits sig (HIx 1)) (hO : ∀ g, O g none = 0) :
    iprop(levAts (K (F := F)).L (K (F := F)).lev ∗ emp ∗ goRes m d (L 0).val (L 1).val
        ∗ scopedBufs (thrV d L) ∗ scopedSems0 (thrV d L) ∗ owes (thrV d L) O W)
      ⊢ wp frame (wpE (defs₀ (F := F)) 𝒱₀ (thrV d L) none) Set.univ
          (cc0_body L tW (Memref.isWhole_whole _) oW (Memref.isWhole_whole _) b0W (Memref.isWhole_whole _) b1W (Memref.isWhole_whole _) b2W (Memref.isWhole_whole _)
            cc0_scratch3 cc0_scratch4 cc0_scratch5 cc0_scratch6 cc0_scratch7 cc0_scratch8)
          fun _ => iprop(tdRes m d (L 0).val (L 1).val ∗ scopedBufs (thrV d L) ∗ scopedSems0 (thrV d L)
            ∗ ∃ W', ⌜∀ p ∈ W', p ∈ W ∨ p.2 = none⌝ ∗ owes (thrV d L) O W') := by
  simp only [cc0_body_eq_skeleton]; unfold cc0_body_skel
  simp only [k0_part2_eq_skeleton]; unfold k0_part2_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  unfold goRes tdRes; rw [fin4, fin4]
  iintro ⟨#Hlv, -, ⟨⟨Ht0, Ho0⟩, ⟨Ht1, Ho1⟩, ⟨Ht2, Ho2⟩, ⟨Ht3, Ho3⟩⟩, ⟨⟨%f0, Hb0⟩, ⟨%f1, Hb1⟩, ⟨%f2, Hb2⟩, Hbufs⟩, ⟨⟨Hs3, Hs4, Hs5, Hs6, Hs7, Hs8⟩, Hsems⟩, HO⟩
  ihave Hmw := ((K (F := F)).mayWaits_none (thr := thrV d L) hO) $$ Hlv
  ihave Ht0 := (Entails.of_eq (pts_tCh0 (F := F) d L _).symm) $$ Ht0
  ihave Ht1 := (Entails.of_eq (pts_tCh1 (F := F) d L _).symm) $$ Ht1
  ihave Ht2 := (Entails.of_eq (pts_tCh2 (F := F) d L _).symm) $$ Ht2
  ihave Ht3 := (Entails.of_eq (pts_tCh3 (F := F) d L _).symm) $$ Ht3
  ihave Ho0 := (Entails.of_eq (pts_oCh0 (F := F) d L _).symm) $$ Ho0
  ihave Ho1 := (Entails.of_eq (pts_oCh1 (F := F) d L _).symm) $$ Ho1
  ihave Ho2 := (Entails.of_eq (pts_oCh2 (F := F) d L _).symm) $$ Ho2
  ihave Ho3 := (Entails.of_eq (pts_oCh3 (F := F) d L _).symm) $$ Ho3
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  sl_exec
  sl_unfold_run_names
  sl_step
  ihave Ht0 := (Entails.of_eq (pts_tCh0 (F := F) d L _)) $$ Ht0
  ihave Ht1 := (Entails.of_eq (pts_tCh1 (F := F) d L _)) $$ Ht1
  ihave Ht2 := (Entails.of_eq (pts_tCh2 (F := F) d L _)) $$ Ht2
  ihave Ht3 := (Entails.of_eq (pts_tCh3 (F := F) d L _)) $$ Ht3
  ihave Ho0 := (Entails.of_eq (out_fix0 m d L _)) $$ Ho0
  ihave Ho1 := (Entails.of_eq (out_fix1 m d L _)) $$ Ho1
  ihave Ho2 := (Entails.of_eq (out_fix2 m d L _)) $$ Ho2
  ihave Ho3 := (Entails.of_eq (out_fix3 m d L _)) $$ Ho3
  isplitl [Ht0 Ht1 Ht2 Ht3 Ho0 Ho1 Ho2 Ho3]
  · isplitl [Ht0 Ho0]
    · isplitl [Ht0]; · iexact Ht0
      iexact Ho0
    isplitl [Ht1 Ho1]
    · isplitl [Ht1]; · iexact Ht1
      iexact Ho1
    isplitl [Ht2 Ho2]
    · isplitl [Ht2]; · iexact Ht2
      iexact Ho2
    isplitl [Ht3]; · iexact Ht3
    iexact Ho3
  isplitl [Hb0 Hb1 Hb2 Hbufs]
  · isplitl [Hb0]
    · iexists _; iapply (Entails.of_eq (pts_b0 (F := F) d L _)); iexact Hb0
    isplitl [Hb1]
    · iexists _; iapply (Entails.of_eq (pts_b1 (F := F) d L _)); iexact Hb1
    isplitl [Hb2]
    · iexists _; iapply (Entails.of_eq (pts_b2 (F := F) d L _)); iexact Hb2
    iexact Hbufs
  isplitl [Hs3 Hs4 Hs5 Hs6 Hs7 Hs8 Hsems]
  · isplitr [Hsems]
    · isplitl [Hs3]; · iexact Hs3
      isplitl [Hs4]; · iexact Hs4
      isplitl [Hs5]; · iexact Hs5
      isplitl [Hs6]; · iexact Hs6
      isplitl [Hs7]; · iexact Hs7
      iexact Hs8
    iexact Hsems
  iexists _; isplitr
  rotate_left
  · iexact HO
  · ipureintro
    exact waits_ok (waits_ok (waits_ok (waits_ok (waits_ok (waits_ok (waits_ok (waits_ok (fun p hp => .inl hp) _) _) _) _) _) _) _) _

end Tile

end Cert.KernelIdeal.Frame

end
-- ==== Proof.KernelIdealLaunch.lean ====
import proofs.«217626_g16260746182798_cont_week2b_915_14_alg».proof.Proof.KernelIdealSetup

noncomputable section

namespace Cert.KernelIdeal.Frame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S4096x1024 EltTy.f32)
local notation "b0W" => (Memref.whole Cert.KernelIdeal.cc0_scratch0 : Memref Cert.KernelIdeal.sig Kind.scVector Space.vmem Cert.KernelIdeal.S32x1024 EltTy.f32)
local notation "b1W" => (Memref.whole Cert.KernelIdeal.cc0_scratch1 : Memref Cert.KernelIdeal.sig Kind.scVector Space.vmem Cert.KernelIdeal.S32x1024 EltTy.f32)
local notation "b2W" => (Memref.whole Cert.KernelIdeal.cc0_scratch2 : Memref Cert.KernelIdeal.sig Kind.scVector Space.vmem Cert.KernelIdeal.S32x1024 EltTy.f32)

variable [FloatOps F]

/-! ## The chunks partition the row block, and sit apart in the table -/

abbrev I3 : Type := Fin 2 × Fin 16 × Fin 4
def tK (x : I3) : Finset S8192x1024.Idx := tSet x.1.val x.2.1.val x.2.2.val
def oK (x : I3) : Finset S4096x1024.Idx := oSet x.1.val x.2.1.val x.2.2.val

omit [FloatOps F] in
/-- A chunk's number `8 s + 4 c + r` determines `(c, s, r)`. -/
theorem key_inj (x y : I3) (h : 8 * x.2.1.val + 4 * x.1.val + x.2.2.val = 8 * y.2.1.val + 4 * y.1.val + y.2.2.val) : x = y := by
  obtain ⟨c, s, r⟩ := x; obtain ⟨c', s', r'⟩ := y
  have hc := c.isLt; have hc' := c'.isLt; have hr := r.isLt; have hr' := r'.isLt
  simp only at h
  refine Prod.ext (Fin.ext ?_) (Prod.ext (Fin.ext ?_) (Fin.ext ?_)) <;> simp only <;> omega

omit [FloatOps F] in
theorem tK_disjoint : ∀ x ∈ (Finset.univ : Finset I3), ∀ y ∈ (Finset.univ : Finset I3), x ≠ y → Disjoint (tK x) (tK y) :=
  fun x _ y _ hne => Finset.disjoint_left.mpr fun i h1 h2 => hne (key_inj x y ((mem_tSet.mp h1).symm.trans (mem_tSet.mp h2)))
omit [FloatOps F] in
theorem oK_disjoint : ∀ x ∈ (Finset.univ : Finset I3), ∀ y ∈ (Finset.univ : Finset I3), x ≠ y → Disjoint (oK x) (oK y) :=
  fun x _ y _ hne => Finset.disjoint_left.mpr fun i h1 h2 => hne (key_inj x y ((mem_oSet.mp h1).symm.trans (mem_oSet.mp h2)))

omit [FloatOps F] in
/-- Every row below 4096 lies in one of the 128 chunks: row `ρ` in chunk `ρ / 32`. -/
theorem oK_cover : (Finset.univ : Finset I3).biUnion oK = Finset.univ := by
  ext i
  simp only [Finset.mem_biUnion, Finset.mem_univ, true_and, iff_true]
  have hi : (i 0).val < 4096 := (i 0).isLt
  refine ⟨(⟨(i 0).val / 32 / 4 % 2, by omega⟩, ⟨(i 0).val / 32 / 8, by omega⟩, ⟨(i 0).val / 32 % 4, by omega⟩), mem_oSet.mpr ?_⟩
  show (i 0).val / 32 = 8 * ((i 0).val / 32 / 8) + 4 * ((i 0).val / 32 / 4 % 2) + (i 0).val / 32 % 4
  omega

omit [FloatOps F] in
theorem oPts_chunks (d : Dev nD) (f : Buf (Elt F) (oLoc d)) :
    (oLoc d ↦{fullShare} f : sProp 𝕄) = bigSep Finset.univ fun x : I3 => oLoc d ↦[oK x]{fullShare} f := by
  rw [← pointsTo_biUnion Finset.univ (ℓ := oLoc d) oK oK_disjoint, oK_cover]; try rfl

/-- The table's rows outside the 128 chunks (rows 4096 and beyond): no task touches them. -/
def tRest : Finset S8192x1024.Idx := Finset.univ \ (Finset.univ : Finset I3).biUnion tK

omit [FloatOps F] in
theorem tPts_chunks (d : Dev nD) (f : Buf (Elt F) (tLoc d)) :
    (tLoc d ↦{fullShare} f : sProp 𝕄) ⊣⊢ iprop((bigSep Finset.univ fun x : I3 => tLoc d ↦[tK x]{fullShare} f) ∗ tLoc d ↦[tRest]{fullShare} f) := by
  rw [← pointsTo_biUnion Finset.univ (ℓ := tLoc d) tK tK_disjoint]
  have h : ((tLoc d ↦[(Finset.univ : Finset I3).biUnion tK ∪ tRest]{fullShare} f : sProp 𝕄)
      ⊣⊢ iprop((tLoc d ↦[(Finset.univ : Finset I3).biUnion tK]{fullShare} f) ∗ tLoc d ↦[tRest]{fullShare} f)) :=
    pointsTo_union Finset.disjoint_sdiff
  rw [show (Finset.univ : Finset I3).biUnion tK ∪ tRest = Finset.univ from Finset.union_sdiff_of_subset (Finset.subset_univ _)] at h
  exact h

omit [FloatOps F] in
/-- The pieces by chunk are the pieces by SparseCore, vector subcore and copy. -/
theorem nest3 (Φ : I3 → sProp 𝕄) :
    bigSep Finset.univ Φ = bigSep Finset.univ fun c : Fin 2 => bigSep Finset.univ fun s : Fin 16 => bigSep Finset.univ fun r : Fin 4 => Φ (c, s, r) := by
  rw [bigSep_univ_prod]
  exact bigSep_congr fun c _ => bigSep_univ_prod _

/-- What the call takes for both SparseCores is the table's 128 chunks and the row block's; what it gives back the same,
    the row block's chunks at `f`. -/
theorem calls_eq (d : Dev nD) (f : Buf (Elt F) (oLoc d)) :
    (bigSep Finset.univ fun c : Fin 2 => bigSep Finset.univ fun s : Fin 16 => bigSep (Finset.univ : Finset (Fin 4)) fun r =>
        iprop(tPiece m d c.val s.val r.val ∗ oPiece d c.val s.val r.val f))
      = iprop((bigSep Finset.univ fun x : I3 => tLoc d ↦[tK x]{fullShare} m (tLoc d)) ∗ bigSep Finset.univ fun x : I3 => oLoc d ↦[oK x]{fullShare} f) := by
  rw [← bigSep_sep', nest3]
  rfl

theorem st0_eq (d : Dev nD) :
    (bigSep Finset.univ fun c : Fin ((K (F := F)).nCore 0) => (P m).st 0 d c)
      = iprop((bigSep Finset.univ fun x : I3 => tLoc d ↦[tK x]{fullShare} m (tLoc d)) ∗ bigSep Finset.univ fun x : I3 => oLoc d ↦[oK x]{fullShare} m (oLoc d)) :=
  calls_eq m d (m (oLoc d))
theorem dn0_eq (d : Dev nD) :
    (bigSep Finset.univ fun c : Fin ((K (F := F)).nCore 0) => (P m).dn 0 d c)
      = iprop((bigSep Finset.univ fun x : I3 => tLoc d ↦[tK x]{fullShare} m (tLoc d)) ∗ bigSep Finset.univ fun x : I3 => oLoc d ↦[oK x]{fullShare} rowsOf m d) :=
  calls_eq m d (rowsOf m d)

/-! ## A SparseCore's operands are its tasks' -/

theorem vecSplit : (K (F := F)).VecSplit' (P m) 0 := by
  intro d c
  show (bigSep Finset.univ fun i : Fin ((K (F := F)).nSub 0) => goRes m d c.val i.val) ⊢ |={Set.univ}=> iprop(
      (bigSep Finset.univ fun i : Fin ((K (F := F)).nSub 0) => goRes m d c.val i.val)
      ∗ ((bigSep Finset.univ fun i : Fin ((K (F := F)).nSub 0) => tdRes m d c.val i.val)
          -∗ bigSep Finset.univ fun i : Fin ((K (F := F)).nSub 0) => tdRes m d c.val i.val))
  iintro H; imodintro
  isplitl [H]; · iexact H
  iintro H; iexact H

/-! ## The launch element: the handshakes' rounds; the counters are found by the transfers themselves -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev t' : DevRef τ sig := Proc.devRef .tc (main_arg1 : Ref sig .tc)
abbrev o' : DevRef τ sig := Proc.devRef .tc (main_v0 : Ref sig .tc)
abbrev r' : DevRef τ sig := Proc.devRef .tc (main_v1 : Ref sig .tc)

/-- The one host operation after the call: the row block under a new leading axis. -/
abbrev opB : HloOp τ sig (Elt F) :=
  StableHlo.unary main_v0 main_v1 (broadcastInDim S1x4096x1024 ![1, 2] bcast_S4096x1024_S1x4096x1024_1_2 : (⟨S4096x1024, .f32⟩ : BufTy).Contents (Elt F) → (⟨S1x4096x1024, .f32⟩ : BufTy).Contents (Elt F))

abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (tLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The contents after the call: the row block at the table's rows. -/
def V1 (d : Dev nD) : Valuation τ sig (Elt F) := Function.update (fun b => m (d, b)) o' (rowsOf m d)

theorem V1_o (d : Dev nD) : V1 m d o' = rowsOf m d := Function.update_self _ _ _
theorem V1_r (d : Dev nD) : V1 m d r' = m (rLoc d) := Function.update_of_ne (show r' ≠ o' by decide) _ _

/-- The result: the table's first 4096 rows under a leading unit axis. -/
abbrev resOf (d : Dev nD) : Buf (Elt F) (rLoc d) := Cert.Spec.result (m (tLoc d))

theorem result_r (d : Dev nD) : (opB (F := F)).result (V1 m d) r' = resOf m d := by
  refine (StableHlo.unary_result main_v0 main_v1 _ _ _ (V1 m d)).trans ?_
  rw [show V1 m d o' = rowsOf m d from V1_o m d]
  exact Cert.Spec.broadcast_rows (m (tLoc d)) _
theorem result_o (d : Dev nD) : (opB (F := F)).result (V1 m d) o' = rowsOf m d :=
  ((opB (F := F)).result_of_not_mem (V1 m d) (b := o') (show o' ∉ ({r'} : Finset (DevRef τ sig)) by decide)).trans (V1_o m d)

theorem hB : (opB (F := F)).bufs ⊆ S2 := show ({o', r'} : Finset (DevRef τ sig)) ⊆ S2 from Finset.Subset.refl _

/-- What @main leaves the claim: the positions and the table at their launch contents, the result at the table's rows. -/
abbrev FIN (d : Dev nD) : sProp 𝕄 := iprop((xLoc d ↦{fullShare} m (xLoc d)) ∗ (tLoc d ↦{fullShare} m (tLoc d)) ∗ rLoc d ↦{fullShare} resOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, Ht, Ho, Hr⟩, -, -⟩, -⟩
  ihave Ht' := (tPts_chunks (F := F) d _).1 $$ Ht
  icases Ht' with ⟨Htc, Htr⟩
  ihave Hoc := (Entails.of_eq (oPts_chunks (F := F) d _)) $$ Ho
  -- the call: every chunk to its vector subcore and back, the row block's at the table's rows
  iapply ((K (F := F)).wp_run (D (F := F)) 𝒱 (EH := EH) (P := P m) κ d 0) $$ [Hst Htc Hoc Hb Hr Hx Htr]
  isplitr; · iexact Hctx
  isplitl [Hst]; · iexact Hst
  isplitl [Htc Hoc]
  · rw [st0_eq]
    isplitl [Htc]; · iexact Htc
    iexact Hoc
  iintro ⟨Hst, Hdn⟩
  ihave Hdn' := (Entails.of_eq (dn0_eq m d)) $$ Hdn
  icases Hdn' with ⟨Htc, Hoc⟩
  ihave Ho := (Entails.of_eq (oPts_chunks (F := F) d _).symm) $$ Hoc
  ihave Ht := (tPts_chunks (F := F) d _).2 $$ [Htc Htr]
  · isplitl [Htc]; · iexact Htc
    iexact Htr
  -- the broadcast, over the row block and the result
  iapply (wp_hlo_within 𝒱 (SparseCore.T d) none Set.univ (op := opB) (S := S2) hB (V := V1 m d)) $$ [Hb Ho Hr]
  · isplitl [Hb]; · iexact Hb
    rw [held_S2, V1_o, V1_r]
    isplitl [Ho]; · iexact Ho
    iexact Hr
  iintro ⟨Hb, Hheld⟩
  ihave Hh := (Entails.of_eq (held_S2 (F := F) d _)) $$ Hheld
  icases Hh with ⟨-, Hr⟩
  rw [wp_ret]; imodintro; imodintro
  isplitl [Hst]; · iexact Hst
  isplitl [Hx]; · iexact Hx
  isplitl [Ht]; · iexact Ht
  rw [result_r]
  iexact Hr

def fq (d : Dev nD) (s' : Phys nD τ sig (Elt F)) : Prop :=
  s'.mem.mem (rLoc d) = resOf m d ∧ s'.mem.mem (xLoc d) = m (xLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hx, Ht, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := rLoc d) (I := Finset.univ) (q := fullShare) (f := resOf m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

end Cert.KernelIdeal.Frame

end
-- ==== Proof.KernelIdealRun.lean ====
import proofs.«217626_g16260746182798_cont_week2b_915_14_alg».proof.Proof.KernelIdealBody
import proofs.«217626_g16260746182798_cont_week2b_915_14_alg».proof.Proof.KernelIdealLaunch

noncomputable section

namespace Cert.KernelIdeal.Frame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "tW" => (Memref.whole Cert.KernelIdeal.main_arg1_scv : Memref Cert.KernelIdeal.sig Kind.scVector Space.hbm Cert.KernelIdeal.S8192x1024 EltTy.f32)
local notation "oW" => (Memref.whole Cert.KernelIdeal.main_v0_scv : Memref Cert.KernelIdeal.sig Kind.scVector Space.hbm Cert.KernelIdeal.S4096x1024 EltTy.f32)
local notation "b0W" => (Memref.whole Cert.KernelIdeal.cc0_scratch0 : Memref Cert.KernelIdeal.sig Kind.scVector Space.vmem Cert.KernelIdeal.S32x1024 EltTy.f32)
local notation "b1W" => (Memref.whole Cert.KernelIdeal.cc0_scratch1 : Memref Cert.KernelIdeal.sig Kind.scVector Space.vmem Cert.KernelIdeal.S32x1024 EltTy.f32)
local notation "b2W" => (Memref.whole Cert.KernelIdeal.cc0_scratch2 : Memref Cert.KernelIdeal.sig Kind.scVector Space.vmem Cert.KernelIdeal.S32x1024 EltTy.f32)

variable [FloatOps F]

/-! ## The launch theorem's obligation for the one vector-subcore kernel -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_body (coordsV c s)
          tW (Memref.isWhole_whole _) oW (Memref.isWhole_whole _) b0W (Memref.isWhole_whole _) b1W (Memref.isWhole_whole _) b2W (Memref.isWhole_whole _)
          cc0_scratch3 cc0_scratch4 cc0_scratch5 cc0_scratch6 cc0_scratch7 cc0_scratch8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

/-! ## The program's run -/

/-- Where every execution ends: the result at the table's first 4096 rows under a leading unit axis, the positions and
    the table as launched. -/
def QC : PUnit × MemSt nD τ sig (Elt F) → Prop := fun r =>
  ∀ c : Dev nD, r.2.mem (rLoc c) = resOf m c ∧ r.2.mem (xLoc c) = m (xLoc c) ∧ r.2.mem (tLoc c) = m (tLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdeal.Frame

end
-- ==== Proof.lean ====
/-
  Both programs return the first 4096 rows of the table under a leading axis of extent one, and neither reads the
  position input's values.

  The kernel: vector subcore `s` of SparseCore `c` moves rows `256 s + 128 c` … `+ 127` of the table into the same rows
  of a row block, 32 rows at a time through three chunk buffers; each of its six semaphores carries one copy at a time
  and a buffer is reused only after the copy out of it has been waited for, so every copy delivers what its source held
  when the kernel started. The 128 chunks are pairwise disjoint and cover the row block; the host then puts the block
  under a new leading axis. The reference looks the rows up at the positions 0, 1, …, 4095: none is negative and all
  are below 8192, so the wrap-around leaves them, the clamp of the gather is the identity and the in-range mask is all
  ones. Entry (0, r, j) of either result is entry (r, j) of the table (`Cert.Spec.result`): equal element by element,
  with no use of finiteness or of the positions' range.
-/
import proofs.«217626_g16260746182798_cont_week2b_915_14_alg».proof.Defs
import proofs.«217626_g16260746182798_cont_week2b_915_14_alg».proof.Proof.Gen.Kernel
import proofs.«217626_g16260746182798_cont_week2b_915_14_alg».proof.Proof.Gen.KernelIdeal
import proofs.«217626_g16260746182798_cont_week2b_915_14_alg».proof.Proof.Gen.ReferenceIdeal
import proofs.«217626_g16260746182798_cont_week2b_915_14_alg».proof.Proof.Gen.Pre_input_domain
import proofs.«217626_g16260746182798_cont_week2b_915_14_alg».proof.Proof.Spec
import proofs.«217626_g16260746182798_cont_week2b_915_14_alg».proof.Proof.RefRun
import proofs.«217626_g16260746182798_cont_week2b_915_14_alg».proof.Proof.KernelRun
import proofs.«217626_g16260746182798_cont_week2b_915_14_alg».proof.Proof.KernelIdealRun
import Idealize.ShloMosaic.Adequacy
import Idealize.ShloMosaic.Init

noncomputable section

namespace Cert.Proof

open Idealize.ShloMosaic Idealize.SL.Sem

/-- The kernel's program at the word level runs to the end and leaves its two arguments as they were. -/
theorem frame_k : Cert.frame_Kernel := fun m ρ _ =>
  (θ_run Cert.Kernel.defs _ _).mono (fun _ h c => ⟨(h c).2.1, (h c).2.2⟩) (Cert.Kernel.Frame.run_main (F := Bits) m ρ)

/-- The same at the ideal instance. -/
theorem frame_ki : Cert.frame_KernelIdeal := fun m ρ _ =>
  (θ_run Cert.KernelIdeal.defs _ _).mono (fun _ h c => ⟨(h c).2.1, (h c).2.2⟩) (Cert.KernelIdeal.Frame.run_main (F := Ideal) m ρ)

/-- The reference's run with its result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- From memories that agree on the arguments both programs end with the table's first 4096 rows under a leading unit
    axis: one function of the table. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg1)),
    Cert.KernelIdeal.Frame.run_main (F := Ideal) m ρ, ?_⟩
  refine (θ_run Cert.ReferenceIdeal.defs _ _).mono (fun _ h c => ⟨(h c).1.trans ?_, (h c).2⟩)
    (Cert.ReferenceIdeal.RefValue.run m' ρ')
  rw [(hagree c).2]

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
